-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512x32 : Shape := ⟨4, ![8, 512, 512, 32]⟩
abbrev S_ : Shape := ⟨0, ![]⟩

class Facts : Prop where
  bcast_S_S8x512x512x32 : S_.BroadcastsInDim S8x512x512x32 (![] : Fin 0 → Fin S8x512x512x32.rank)
  reducesTo_S8x512x512x32_S_d0_1_2_3 : S8x512x512x32.ReducesTo [0, 1, 2, 3] S_
  h_S_ : 0 < S_.numel

variable [Facts]

def fn {F : FTy → Type} [FloatOps F] (main_arg0 : FVec F S8x512x512x32 .f32) : IVec S_ 1 :=
  let main_v0 : FVec F S8x512x512x32 .f32 := Host.absf main_arg0
  let main_cst : FVec F S_ .f32 := constant S_ .f32 0x7F800000#32
  let main_v1 : FVec F S8x512x512x32 .f32 := broadcastInDim S8x512x512x32 ![] bcast_S_S8x512x512x32 main_cst
  let main_v2 : IVec S8x512x512x32 1 := cmpf .olt main_v0 main_v1
  let main_c : IVec S_ 1 := constantI S_ 1 1#1
  let main_v3 : IVec S_ 1 := (fun x v => Host.reduce IntOp.andi x v reducesTo_S8x512x512x32_S_d0_1_2_3 h_S_) main_v2 main_c
  main_v3
-- ==== Kernel.lean ====
abbrev S8x512x512x32 : Shape := ⟨4, ![8, 512, 512, 32]⟩
abbrev S1x32x512x32 : Shape := ⟨4, ![1, 32, 512, 32]⟩
abbrev S1x16x512x32 : Shape := ⟨4, ![1, 16, 512, 32]⟩
abbrev S1x1x512x32 : Shape := ⟨4, ![1, 1, 512, 32]⟩
abbrev S1x32x16x32 : Shape := ⟨4, ![1, 32, 16, 32]⟩
abbrev S1x32x480x32 : Shape := ⟨4, ![1, 32, 480, 32]⟩
abbrev S1x32x1x32 : Shape := ⟨4, ![1, 32, 1, 32]⟩

abbrev nBuf : Space → Nat
  | .hbm => 2
  | .vmem => 4
  | .smem => 0
  | _ => 0

abbrev bufTy : (tb : Table) → Fin (tcTables nBuf tb) → BufTy
  | .hbm, ⟨0, _⟩ => ⟨S8x512x512x32, .f32⟩
  | .hbm, ⟨1, _⟩ => ⟨S8x512x512x32, .f32⟩
  | .local _ .vmem, ⟨0, _⟩ => ⟨S1x32x512x32, .f32⟩
  | .local _ .vmem, ⟨1, _⟩ => ⟨S1x32x512x32, .f32⟩
  | .local _ .vmem, ⟨2, _⟩ => ⟨S1x32x512x32, .f32⟩
  | .local _ .vmem, ⟨3, _⟩ => ⟨S1x32x512x32, .f32⟩
  | _, _ => ⟨S8x512x512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x32x512x32_S1x32x512x32_0_0_0_0 : ∀ a, (![0, 0, 0, 0] : Fin 4 → Nat) a + S1x32x512x32.size a ≤ S1x32x512x32.size a
  h_S1x32x512x32 : 0 < S1x32x512x32.numel
  slices_S1x32x512x32_o0_0_0_0_S1x16x512x32 : S1x32x512x32.Slices ![0, 0, 0, 0] S1x16x512x32
  slices_S1x32x512x32_o0_16_0_0_S1x16x512x32 : S1x32x512x32.Slices ![0, 16, 0, 0] S1x16x512x32
  slices_S1x16x512x32_o0_0_0_0_S1x1x512x32 : S1x16x512x32.Slices ![0, 0, 0, 0] S1x1x512x32
  slices_S1x16x512x32_o0_1_0_0_S1x1x512x32 : S1x16x512x32.Slices ![0, 1, 0, 0] S1x1x512x32
  slices_S1x16x512x32_o0_2_0_0_S1x1x512x32 : S1x16x512x32.Slices ![0, 2, 0, 0] S1x1x512x32
  slices_S1x16x512x32_o0_3_0_0_S1x1x512x32 : S1x16x512x32.Slices ![0, 3, 0, 0] S1x1x512x32
  slices_S1x16x512x32_o0_4_0_0_S1x1x512x32 : S1x16x512x32.Slices ![0, 4, 0, 0] S1x1x512x32
  slices_S1x16x512x32_o0_5_0_0_S1x1x512x32 : S1x16x512x32.Slices ![0, 5, 0, 0] S1x1x512x32
  slices_S1x16x512x32_o0_6_0_0_S1x1x512x32 : S1x16x512x32.Slices ![0, 6, 0, 0] S1x1x512x32
  slices_S1x16x512x32_o0_7_0_0_S1x1x512x32 : S1x16x512x32.Slices ![0, 7, 0, 0] S1x1x512x32
  slices_S1x16x512x32_o0_8_0_0_S1x1x512x32 : S1x16x512x32.Slices ![0, 8, 0, 0] S1x1x512x32
  slices_S1x16x512x32_o0_9_0_0_S1x1x512x32 : S1x16x512x32.Slices ![0, 9, 0, 0] S1x1x512x32
  slices_S1x16x512x32_o0_10_0_0_S1x1x512x32 : S1x16x512x32.Slices ![0, 10, 0, 0] S1x1x512x32
  slices_S1x16x512x32_o0_11_0_0_S1x1x512x32 : S1x16x512x32.Slices ![0, 11, 0, 0] S1x1x512x32
  slices_S1x16x512x32_o0_12_0_0_S1x1x512x32 : S1x16x512x32.Slices ![0, 12, 0, 0] S1x1x512x32
  slices_S1x16x512x32_o0_13_0_0_S1x1x512x32 : S1x16x512x32.Slices ![0, 13, 0, 0] S1x1x512x32
  slices_S1x16x512x32_o0_14_0_0_S1x1x512x32 : S1x16x512x32.Slices ![0, 14, 0, 0] S1x1x512x32
  slices_S1x16x512x32_o0_15_0_0_S1x1x512x32 : S1x16x512x32.Slices ![0, 15, 0, 0] S1x1x512x32
  concatenates_S1x1x512x32_S1x1x512x32_S1x1x512x32_S1x1x512x32_S1x1x512x32_S1x1x512x32_S1x1x512x32_S1x1x512x32_S1x1x512x32_S1x1x512x32_S1x1x512x32_S1x1x512x32_S1x1x512x32_S1x1x512x32_S1x1x512x32_S1x1x512x32_S1x16x512x32_d1 : Shape.Concatenates [S1x1x512x32, S1x1x512x32, S1x1x512x32, S1x1x512x32, S1x1x512x32, S1x1x512x32, S1x1x512x32, S1x1x512x32, S1x1x512x32, S1x1x512x32, S1x1x512x32, S1x1x512x32, S1x1x512x32, S1x1x512x32, S1x1x512x32, S1x1x512x32] S1x16x512x32 1
  concatenates_S1x16x512x32_S1x16x512x32_S1x32x512x32_d1 : Shape.Concatenates [S1x16x512x32, S1x16x512x32] S1x32x512x32 1
  slices_S1x32x512x32_o0_0_0_0_S1x32x16x32 : S1x32x512x32.Slices ![0, 0, 0, 0] S1x32x16x32
  slices_S1x32x512x32_o0_0_16_0_S1x32x16x32 : S1x32x512x32.Slices ![0, 0, 16, 0] S1x32x16x32
  slices_S1x32x512x32_o0_0_32_0_S1x32x480x32 : S1x32x512x32.Slices ![0, 0, 32, 0] S1x32x480x32
  slices_S1x32x16x32_o0_0_0_0_S1x32x1x32 : S1x32x16x32.Slices ![0, 0, 0, 0] S1x32x1x32
  slices_S1x32x16x32_o0_0_1_0_S1x32x1x32 : S1x32x16x32.Slices ![0, 0, 1, 0] S1x32x1x32
  slices_S1x32x16x32_o0_0_2_0_S1x32x1x32 : S1x32x16x32.Slices ![0, 0, 2, 0] S1x32x1x32
  slices_S1x32x16x32_o0_0_3_0_S1x32x1x32 : S1x32x16x32.Slices ![0, 0, 3, 0] S1x32x1x32
  slices_S1x32x16x32_o0_0_4_0_S1x32x1x32 : S1x32x16x32.Slices ![0, 0, 4, 0] S1x32x1x32
  slices_S1x32x16x32_o0_0_5_0_S1x32x1x32 : S1x32x16x32.Slices ![0, 0, 5, 0] S1x32x1x32
  slices_S1x32x16x32_o0_0_6_0_S1x32x1x32 : S1x32x16x32.Slices ![0, 0, 6, 0] S1x32x1x32
  slices_S1x32x16x32_o0_0_7_0_S1x32x1x32 : S1x32x16x32.Slices ![0, 0, 7, 0] S1x32x1x32
  slices_S1x32x16x32_o0_0_8_0_S1x32x1x32 : S1x32x16x32.Slices ![0, 0, 8, 0] S1x32x1x32
  slices_S1x32x16x32_o0_0_9_0_S1x32x1x32 : S1x32x16x32.Slices ![0, 0, 9, 0] S1x32x1x32
  slices_S1x32x16x32_o0_0_10_0_S1x32x1x32 : S1x32x16x32.Slices ![0, 0, 10, 0] S1x32x1x32
  slices_S1x32x16x32_o0_0_11_0_S1x32x1x32 : S1x32x16x32.Slices ![0, 0, 11, 0] S1x32x1x32
  slices_S1x32x16x32_o0_0_12_0_S1x32x1x32 : S1x32x16x32.Slices ![0, 0, 12, 0] S1x32x1x32
  slices_S1x32x16x32_o0_0_13_0_S1x32x1x32 : S1x32x16x32.Slices ![0, 0, 13, 0] S1x32x1x32
  slices_S1x32x16x32_o0_0_14_0_S1x32x1x32 : S1x32x16x32.Slices ![0, 0, 14, 0] S1x32x1x32
  slices_S1x32x16x32_o0_0_15_0_S1x32x1x32 : S1x32x16x32.Slices ![0, 0, 15, 0] S1x32x1x32
  concatenates_S1x32x1x32_S1x32x1x32_S1x32x1x32_S1x32x1x32_S1x32x1x32_S1x32x1x32_S1x32x1x32_S1x32x1x32_S1x32x1x32_S1x32x1x32_S1x32x1x32_S1x32x1x32_S1x32x1x32_S1x32x1x32_S1x32x1x32_S1x32x1x32_S1x32x16x32_d2 : Shape.Concatenates [S1x32x1x32, S1x32x1x32, S1x32x1x32, S1x32x1x32, S1x32x1x32, S1x32x1x32, S1x32x1x32, S1x32x1x32, S1x32x1x32, S1x32x1x32, S1x32x1x32, S1x32x1x32, S1x32x1x32, S1x32x1x32, S1x32x1x32, S1x32x1x32] S1x32x16x32 2
  inb_S1x32x512x32_S1x32x16x32_0_0_0_0 : ∀ a, (![0, 0, 0, 0] : Fin 4 → Nat) a + S1x32x16x32.size a ≤ S1x32x512x32.size a
  h_S1x32x16x32 : 0 < S1x32x16x32.numel
  inb_S1x32x512x32_S1x32x16x32_0_0_16_0 : ∀ a, (![0, 0, 16, 0] : Fin 4 → Nat) a + S1x32x16x32.size a ≤ S1x32x512x32.size a
  inb_S1x32x512x32_S1x32x480x32_0_0_32_0 : ∀ a, (![0, 0, 32, 0] : Fin 4 → Nat) a + S1x32x480x32.size a ≤ S1x32x512x32.size a
  h_S1x32x480x32 : 0 < S1x32x480x32.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512x32.size a ≤ S8x512x512x32.size a
  hwx0_0 : ∀ i : grid0.Coords, EltTy.bits .f32 = 32 ∨ (Rect.block (s := S8x512x512x32) S1x32x512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x512x32.size a ≤ S8x512x512x32.size a
  hwx0_1 : ∀ i : grid0.Coords, EltTy.bits .f32 = 32 ∨ (Rect.block (s := S8x512x512x32) S1x32x512x32.size (cc0_transform_1 i) (hinb0_1 i)).WholeWords (EltTy.packing .f32)

variable [Facts₀]

abbrev win0_0 : Pipeline.Window sig grid0 :=
  Pipeline.Window.ofSpec (Memref.whole main_arg0) S1x32x512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x512x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x512x512x32 : Shape := ⟨4, ![8, 512, 512, 32]⟩
abbrev S8x16x512x32 : Shape := ⟨4, ![8, 16, 512, 32]⟩
abbrev S_ : Shape := ⟨0, ![]⟩
abbrev S1 : Shape := ⟨1, ![1]⟩
abbrev S8x512x16x32 : Shape := ⟨4, ![8, 512, 16, 32]⟩

abbrev nBuf : Space → Nat
  | .hbm => 11
  | .vmem => 0
  | .smem => 0
  | _ => 0

abbrev bufTy : (tb : Table) → Fin (tcTables nBuf tb) → BufTy
  | .hbm, ⟨0, _⟩ => ⟨S8x512x512x32, .f32⟩
  | .hbm, ⟨1, _⟩ => ⟨S8x16x512x32, .f32⟩
  | .hbm, ⟨2, _⟩ => ⟨S8x16x512x32, .f32⟩
  | .hbm, ⟨3, _⟩ => ⟨S_, .i32⟩
  | .hbm, ⟨4, _⟩ => ⟨S1, .i32⟩
  | .hbm, ⟨5, _⟩ => ⟨S8x512x512x32, .f32⟩
  | .hbm, ⟨6, _⟩ => ⟨S8x512x16x32, .f32⟩
  | .hbm, ⟨7, _⟩ => ⟨S8x512x16x32, .f32⟩
  | .hbm, ⟨8, _⟩ => ⟨S_, .i32⟩
  | .hbm, ⟨9, _⟩ => ⟨S1, .i32⟩
  | .hbm, ⟨10, _⟩ => ⟨S8x512x512x32, .f32⟩
  | _, _ => ⟨S8x512x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  slices_S8x512x512x32_S8x16x512x32_0_0_0_0 : S8x512x512x32.Slices ![0, 0, 0, 0] S8x16x512x32
  bcast_S_S1 : S_.BroadcastsInDim S1 (![] : Fin 0 → Fin S1.rank)
  slices_S8x512x512x32_S8x512x16x32_0_0_0_0 : S8x512x512x32.Slices ![0, 0, 0, 0] S8x512x16x32
  scatter_S8x512x512x32_S1_S8x16x512x32_0123_n_1_0_wf : ScatterDims.WF S8x512x512x32 S1 S8x16x512x32 [0, 1, 2, 3] [] [1] 0
  scatter_S8x512x512x32_S1_S8x512x16x32_0123_n_2_0_wf : ScatterDims.WF S8x512x512x32 S1 S8x512x16x32 [0, 1, 2, 3] [] [2] 0

variable [Facts₀]

def scatter_S8x512x512x32_S1_S8x16x512x32_0123_n_1_0 : ScatterDims S8x512x512x32 S1 S8x16x512x32 where
  updateWindowDims := [0, 1, 2, 3]
  insertedWindowDims := []
  scatterDimsToOperandDims := [1]
  indexVectorDim := 0
  wf := scatter_S8x512x512x32_S1_S8x16x512x32_0123_n_1_0_wf
def scatter_S8x512x512x32_S1_S8x512x16x32_0123_n_2_0 : ScatterDims S8x512x512x32 S1 S8x512x16x32 where
  updateWindowDims := [0, 1, 2, 3]
  insertedWindowDims := []
  scatterDimsToOperandDims := [2]
  indexVectorDim := 0
  wf := scatter_S8x512x512x32_S1_S8x512x16x32_0123_n_2_0_wf

class Facts : Prop extends Facts₀ where

variable [Facts]
-- ==== Proof.Fold.lean ====
/-
  FOLDING A BORDER ONTO ITS NEIGHBOUR, twice: the function both programs compute.

  On an array x[b, h, w, c] of extents 8 x 512 x 512 x 32, first along the rows (axis h): rows 16 .. 31 receive the
  mirror image of rows 0 .. 15, row h getting x[b, 31 - h, w, c] added to it; every other row is kept. Then the same
  along the columns (axis w) of the result y: columns 16 .. 31 receive y[b, h, 31 - w, c]; every other column is kept.
  Only additions of two elements occur, so the definitions make sense on the extended reals without any finiteness.
-/
import Idealize.ShloMosaic.PureOps.Ideal
import Idealize.ShloMosaic.Lib.ValueIdx

noncomputable section

namespace Cert.Fold

open Idealize.ShloMosaic Idealize.ShloMosaic.ValueIdx

/-- The array's shape. -/
abbrev SX : Shape := ⟨4, ![8, 512, 512, 32]⟩

/-- The mirror image of a position about the boundary between 15 and 16: position k goes to 31 - k. -/
def mirror (k : Fin 512) : Fin 512 := ⟨31 - k.val, by omega⟩

theorem mirror_val (k : Fin 512) : (mirror k).val = 31 - k.val := rfl

/-- Rows 16 .. 31 receive the mirrored rows 15 .. 0. -/
def foldRows (x : SX.Idx → EReal) : SX.Idx → EReal := fun i =>
  if 16 ≤ (i 1).val ∧ (i 1).val < 32 then
    x i + x (ix4 (n0 := 8) (n1 := 512) (n2 := 512) (n3 := 32) (i 0) (mirror (i 1)) (i 2) (i 3))
  else x i

/-- Columns 16 .. 31 receive the mirrored columns 15 .. 0. -/
def foldCols (y : SX.Idx → EReal) : SX.Idx → EReal := fun i =>
  if 16 ≤ (i 2).val ∧ (i 2).val < 32 then
    y i + y (ix4 (n0 := 8) (n1 := 512) (n2 := 512) (n3 := 32) (i 0) (i 1) (mirror (i 2)) (i 3))
  else y i

/-- The rows folded, then the columns of the result. -/
def fold2 (x : SX.Idx → EReal) : SX.Idx → EReal := foldCols (foldRows x)

theorem foldRows_apply (x : SX.Idx → EReal) (a : Fin 8) (h : Fin 512) (w : Fin 512) (c : Fin 32) :
    foldRows x (ix4 a h w c)
      = if 16 ≤ h.val ∧ h.val < 32 then x (ix4 a h w c) + x (ix4 a (mirror h) w c) else x (ix4 a h w c) := rfl

theorem foldCols_apply (y : SX.Idx → EReal) (a : Fin 8) (h : Fin 512) (w : Fin 512) (c : Fin 32) :
    foldCols y (ix4 a h w c)
      = if 16 ≤ w.val ∧ w.val < 32 then y (ix4 a h w c) + y (ix4 a h (mirror w) c) else y (ix4 a h w c) := rfl

/-! ## One block of 32 rows

  The array is cut along the rows into 16 blocks of 32 rows (and along the batch into single batch entries). The rows
  16 .. 31 that the row fold changes, and the rows 0 .. 15 it reads, all lie in the FIRST row block; every other block
  is kept by the row fold. The column fold stays inside every block, because a block keeps all 512 columns. So each
  block of the result is a function of the same block of the argument and of whether it is the first. -/

/-- One block's shape: one batch entry, 32 rows, all columns and channels. -/
abbrev SB : Shape := ⟨4, ![1, 32, 512, 32]⟩

/-- The row fold inside a block: in the first block the lower half receives the mirrored upper half, in any other
    block it receives zero. -/
def blockRows (first : Bool) (v : SB.Idx → EReal) : SB.Idx → EReal := fun y =>
  if 16 ≤ (y 1).val then
    v y + (if first then
      v (ix4 (n0 := 1) (n1 := 32) (n2 := 512) (n3 := 32) (y 0) ⟨31 - (y 1).val, by omega⟩ (y 2) (y 3)) else 0)
  else v y

/-- The column fold inside a block. -/
def blockCols (u : SB.Idx → EReal) : SB.Idx → EReal := fun y =>
  if 16 ≤ (y 2).val ∧ (y 2).val < 32 then
    u y + u (ix4 (n0 := 1) (n1 := 32) (n2 := 512) (n3 := 32) (y 0) (y 1) (mirror (y 2)) (y 3))
  else u y

/-- Both folds inside a block. -/
def blockFold (first : Bool) (v : SB.Idx → EReal) : SB.Idx → EReal := blockCols (blockRows first v)

theorem blockRows_apply (first : Bool) (v : SB.Idx → EReal) (z : Fin 1) (r : Fin 32) (w : Fin 512) (c : Fin 32) :
    blockRows first v (ix4 z r w c)
      = if 16 ≤ r.val then v (ix4 z r w c) + (if first then v (ix4 z ⟨31 - r.val, by omega⟩ w c) else 0)
        else v (ix4 z r w c) := rfl

theorem blockCols_apply (u : SB.Idx → EReal) (z : Fin 1) (r : Fin 32) (w : Fin 512) (c : Fin 32) :
    blockCols u (ix4 z r w c)
      = if 16 ≤ w.val ∧ w.val < 32 then u (ix4 z r w c) + u (ix4 z r (mirror w) c) else u (ix4 z r w c) := rfl

/-- Left of column 16 the block's folds are its row fold. -/
theorem blockFold_left (first : Bool) (v : SB.Idx → EReal) (z : Fin 1) (r : Fin 32) (w : Fin 512) (c : Fin 32)
    (hw : w.val < 16) : blockFold first v (ix4 z r w c) = blockRows first v (ix4 z r w c) := by
  unfold blockFold
  rw [blockCols_apply, if_neg (by omega)]

/-- From column 32 on the block's folds are its row fold. -/
theorem blockFold_right (first : Bool) (v : SB.Idx → EReal) (z : Fin 1) (r : Fin 32) (w : Fin 512) (c : Fin 32)
    (hw : 32 ≤ w.val) : blockFold first v (ix4 z r w c) = blockRows first v (ix4 z r w c) := by
  unfold blockFold
  rw [blockCols_apply, if_neg (by omega)]

/-- In columns 16 .. 31 the block's folds add the mirrored column of its row fold. -/
theorem blockFold_mid (first : Bool) (v : SB.Idx → EReal) (z : Fin 1) (r : Fin 32) (w : Fin 512) (c : Fin 32)
    (hw : 16 ≤ w.val ∧ w.val < 32) :
    blockFold first v (ix4 z r w c) = blockRows first v (ix4 z r w c) + blockRows first v (ix4 z r (mirror w) c) := by
  unfold blockFold
  rw [blockCols_apply, if_pos hw]

/-- Row r of row block q is row 32 q + r of the array. -/
def rowOf (q : Fin 16) (r : Fin 32) : Fin 512 := ⟨32 * q.val + r.val, by omega⟩

theorem rowOf_val (q : Fin 16) (r : Fin 32) : (rowOf q r).val = 32 * q.val + r.val := rfl

/-- The row fold of the array, read inside row block q of batch entry b, is the block's row fold: in the first
    block both add the mirrored row; in any other block the array's fold keeps the row and the block's adds zero. -/
theorem blockRows_eq (x : SX.Idx → EReal) (b : Fin 8) (q : Fin 16) (v : SB.Idx → EReal)
    (hv : ∀ (r : Fin 32) (w : Fin 512) (c : Fin 32), v (ix4 (0 : Fin 1) r w c) = x (ix4 b (rowOf q r) w c))
    (r : Fin 32) (w : Fin 512) (c : Fin 32) :
    blockRows (decide (q.val = 0)) v (ix4 (0 : Fin 1) r w c) = foldRows x (ix4 b (rowOf q r) w c) := by
  rw [blockRows_apply, foldRows_apply, hv]
  by_cases hq : q.val = 0
  · rw [decide_eq_true hq]
    by_cases hr : 16 ≤ r.val
    · have h2 : 16 ≤ (rowOf q r).val ∧ (rowOf q r).val < 32 := by rw [rowOf_val]; omega
      rw [if_pos hr, if_pos h2, if_pos rfl, hv]
      have e : rowOf q (⟨31 - r.val, by omega⟩ : Fin 32) = mirror (rowOf q r) :=
        Fin.ext (by rw [mirror_val, rowOf_val, rowOf_val]; show 32 * q.val + (31 - r.val) = 31 - (32 * q.val + r.val); omega)
      rw [e]
    · have h2 : ¬ (16 ≤ (rowOf q r).val ∧ (rowOf q r).val < 32) := by rw [rowOf_val]; omega
      rw [if_neg hr, if_neg h2]
  · rw [decide_eq_false hq]
    have h2 : ¬ (16 ≤ (rowOf q r).val ∧ (rowOf q r).val < 32) := by rw [rowOf_val]; omega
    rw [if_neg h2]
    by_cases hr : 16 ≤ r.val
    · rw [if_pos hr, if_neg (by decide : ¬ (false = true)), add_zero]
    · rw [if_neg hr]

/-- Both folds of the array, read inside row block q of batch entry b, are the block's folds of that block. -/
theorem blockFold_eq (x : SX.Idx → EReal) (b : Fin 8) (q : Fin 16) (v : SB.Idx → EReal)
    (hv : ∀ (r : Fin 32) (w : Fin 512) (c : Fin 32), v (ix4 (0 : Fin 1) r w c) = x (ix4 b (rowOf q r) w c))
    (r : Fin 32) (w : Fin 512) (c : Fin 32) :
    blockFold (decide (q.val = 0)) v (ix4 (0 : Fin 1) r w c) = fold2 x (ix4 b (rowOf q r) w c) := by
  unfold blockFold fold2
  rw [blockCols_apply, foldCols_apply, blockRows_eq x b q v hv, blockRows_eq x b q v hv]

/-- The same with the two indices given by their coordinates: position j of row block q of batch entry b against the
    array position k with the same batch entry, row 32 q + (j's row), and j's column and channel. -/
theorem block_eq (x : SX.Idx → EReal) (b : Fin 8) (q : Fin 16) (v : SB.Idx → EReal)
    (hv : ∀ (r : Fin 32) (w : Fin 512) (c : Fin 32), v (ix4 (0 : Fin 1) r w c) = x (ix4 b (rowOf q r) w c))
    (j : SB.Idx) (k : SX.Idx) (h0 : (k 0).val = b.val) (h1 : (k 1).val = 32 * q.val + (j 1).val)
    (h2 : (k 2).val = (j 2).val) (h3 : (k 3).val = (j 3).val) :
    blockFold (decide (q.val = 0)) v j = fold2 x k := by
  have hj : j = ix4 (0 : Fin 1) (j 1) (j 2) (j 3) := by
    funext a
    match a with
    | ⟨0, _⟩ => exact Fin.fin_one_eq_zero (j 0)
    | ⟨1, _⟩ => rfl
    | ⟨2, _⟩ => rfl
    | ⟨3, _⟩ => rfl
  have hk : k = ix4 b (rowOf q (j 1)) (j 2) (j 3) := by
    funext a
    match a with
    | ⟨0, _⟩ => exact Fin.ext h0
    | ⟨1, _⟩ => exact Fin.ext h1
    | ⟨2, _⟩ => exact Fin.ext h2
    | ⟨3, _⟩ => exact Fin.ext h3
  exact (congrArg (blockFold (decide (q.val = 0)) v) hj).trans
    ((blockFold_eq x b q v hv (j 1) (j 2) (j 3)).trans (congrArg (fold2 x) hk.symm))

end Cert.Fold

end
-- ==== Proof.LibMirror.lean ====
/-
  A BLOCK OF ROWS (OR COLUMNS) REVERSED BY SLICING AND JOINING, read at an index (general lemmas; any element type,
  any extents).

  A kernel that cannot reverse an axis directly cuts the L unit slices of a rank-4 array X along axis 1 (or axis 2)
  and joins them again LAST SLICE FIRST. Piece n of the join is the slice at position L - 1 - n, so the join read at
  position k along the axis is X at the mirrored position L - 1 - k, the other coordinates unchanged
  ('mirror_axis1_apply', 'mirror_axis2_apply'). 'slices_row' / 'slices_col': a unit slice at a position inside the axis
  fits the array.
-/
import Idealize.ShloMosaic.Lib.ValueLayout

open Idealize.ShloMosaic Idealize.ShloMosaic.ValueIdx

namespace Cert.Mirror

variable {α : Type}

/-- A unit slice along axis 1 at a position inside the axis fits. -/
theorem slices_row {n0 L n2 n3 : ℕ} (r : ℕ) (hr : r < L) :
    (⟨4, ![n0, L, n2, n3]⟩ : Shape).Slices ![0, r, 0, 0] ⟨4, ![n0, 1, n2, n3]⟩ :=
  ⟨rfl, fun ax => by
    match ax with
    | ⟨0, _⟩ => show 0 + n0 ≤ n0; omega
    | ⟨1, _⟩ => show r + 1 ≤ L; omega
    | ⟨2, _⟩ => show 0 + n2 ≤ n2; omega
    | ⟨3, _⟩ => show 0 + n3 ≤ n3; omega⟩

/-- A unit slice along axis 2 at a position inside the axis fits. -/
theorem slices_col {n0 n1 L n3 : ℕ} (r : ℕ) (hr : r < L) :
    (⟨4, ![n0, n1, L, n3]⟩ : Shape).Slices ![0, 0, r, 0] ⟨4, ![n0, n1, 1, n3]⟩ :=
  ⟨rfl, fun ax => by
    match ax with
    | ⟨0, _⟩ => show 0 + n0 ≤ n0; omega
    | ⟨1, _⟩ => show 0 + n1 ≤ n1; omega
    | ⟨2, _⟩ => show r + 1 ≤ L; omega
    | ⟨3, _⟩ => show 0 + n3 ≤ n3; omega⟩

/-- The unit slices along axis 1 joined last first, read at (a, k, c, e): X at (a, L - 1 - k, c, e). -/
theorem mirror_axis1_apply {n0 L n2 n3 : ℕ} (X : (⟨4, ![n0, L, n2, n3]⟩ : Shape).Idx → α)
    (h : Shape.Concatenates ((List.ofFn fun n : Fin L =>
        ((⟨⟨4, ![n0, 1, n2, n3]⟩, extractStridedSlice ⟨4, ![n0, 1, n2, n3]⟩ ![0, L - 1 - n.val, 0, 0] X
          (slices_row (L - 1 - n.val) (by have := n.isLt; omega))⟩ : (s : Shape) × (s.Idx → α)))).map (·.1))
        ⟨4, ![n0, L, n2, n3]⟩ 1)
    (a : Fin n0) (k : Fin L) (c : Fin n2) (e : Fin n3) :
    concatenate ⟨4, ![n0, L, n2, n3]⟩ 1 (List.ofFn fun n : Fin L =>
        ((⟨⟨4, ![n0, 1, n2, n3]⟩, extractStridedSlice ⟨4, ![n0, 1, n2, n3]⟩ ![0, L - 1 - n.val, 0, 0] X
          (slices_row (L - 1 - n.val) (by have := n.isLt; omega))⟩ : (s : Shape) × (s.Idx → α)))) h (ix4 a k c e)
      = X (ix4 a (⟨L - 1 - k.val, by have := k.isLt; omega⟩ : Fin L) c e) := by
  refine (concatenate_ofFn_unit_apply (t := ⟨4, ![n0, L, n2, n3]⟩) (s₁ := ⟨4, ![n0, 1, n2, n3]⟩) (1 : Fin 4) (fun n : Fin L =>
      extractStridedSlice ⟨4, ![n0, 1, n2, n3]⟩ ![0, L - 1 - n.val, 0, 0] X
        (slices_row (L - 1 - n.val) (by have := n.isLt; omega))) h rfl rfl (ix4 a k c e : (⟨4, ![n0, L, n2, n3]⟩ : Shape).Idx) k rfl
      (ix4 a (0 : Fin 1) c e : (⟨4, ![n0, 1, n2, n3]⟩ : Shape).Idx) ?_).trans ?_
  · intro b hb
    match b with
    | ⟨0, _⟩ => rfl
    | ⟨1, _⟩ => exact absurd rfl hb
    | ⟨2, _⟩ => rfl
    | ⟨3, _⟩ => rfl
  · exact slice4_axis1_apply (L - 1 - k.val) X _ a (0 : Fin 1) c e _ (by show L - 1 - k.val = L - 1 - k.val + 0; omega)

/-- The unit slices along axis 2 joined last first, read at (a, b, k, e): X at (a, b, L - 1 - k, e). -/
theorem mirror_axis2_apply {n0 n1 L n3 : ℕ} (X : (⟨4, ![n0, n1, L, n3]⟩ : Shape).Idx → α)
    (h : Shape.Concatenates ((List.ofFn fun n : Fin L =>
        ((⟨⟨4, ![n0, n1, 1, n3]⟩, extractStridedSlice ⟨4, ![n0, n1, 1, n3]⟩ ![0, 0, L - 1 - n.val, 0] X
          (slices_col (L - 1 - n.val) (by have := n.isLt; omega))⟩ : (s : Shape) × (s.Idx → α)))).map (·.1))
        ⟨4, ![n0, n1, L, n3]⟩ 2)
    (a : Fin n0) (b : Fin n1) (k : Fin L) (e : Fin n3) :
    concatenate ⟨4, ![n0, n1, L, n3]⟩ 2 (List.ofFn fun n : Fin L =>
        ((⟨⟨4, ![n0, n1, 1, n3]⟩, extractStridedSlice ⟨4, ![n0, n1, 1, n3]⟩ ![0, 0, L - 1 - n.val, 0] X
          (slices_col (L - 1 - n.val) (by have := n.isLt; omega))⟩ : (s : Shape) × (s.Idx → α)))) h (ix4 a b k e)
      = X (ix4 a b (⟨L - 1 - k.val, by have := k.isLt; omega⟩ : Fin L) e) := by
  refine (concatenate_ofFn_unit_apply (t := ⟨4, ![n0, n1, L, n3]⟩) (s₁ := ⟨4, ![n0, n1, 1, n3]⟩) (2 : Fin 4) (fun n : Fin L =>
      extractStridedSlice ⟨4, ![n0, n1, 1, n3]⟩ ![0, 0, L - 1 - n.val, 0] X
        (slices_col (L - 1 - n.val) (by have := n.isLt; omega))) h rfl rfl (ix4 a b k e : (⟨4, ![n0, n1, L, n3]⟩ : Shape).Idx) k rfl
      (ix4 a b (0 : Fin 1) e : (⟨4, ![n0, n1, 1, n3]⟩ : Shape).Idx) ?_).trans ?_
  · intro ax hb
    match ax with
    | ⟨0, _⟩ => rfl
    | ⟨1, _⟩ => rfl
    | ⟨2, _⟩ => exact absurd rfl hb
    | ⟨3, _⟩ => rfl
  · exact slice4_axis2_apply (L - 1 - k.val) X _ a b (0 : Fin 1) e _ (by show L - 1 - k.val = L - 1 - k.val + 0; omega)

end Cert.Mirror
-- ==== Proof.Payload.lean ====
/-
  WHAT THE KERNEL'S BODY STORES, index by index, over the extended reals.

  The body loads its 1 x 32 x 512 x 32 block v. It cuts the upper 16 rows and the lower 16 rows, reverses the upper rows
  (sixteen unit slices joined last first), keeps the reversed rows in the first row block and replaces them by zeros in
  every other block, adds them to the lower rows and joins upper and lower rows again: the block's row fold. Of that it
  stores columns 0 .. 15 as they are, columns 16 .. 31 with columns 15 .. 0 (again reversed by slicing and joining) added,
  and columns 32 .. 511 as they are: the block's column fold of its row fold, in three pieces.
-/
import proofs.«155534_j63909113364644_2_alg».proof.Proof.Gen.KernelIdeal.Skeleton
import proofs.«155534_j63909113364644_2_alg».proof.Proof.Fold
import proofs.«155534_j63909113364644_2_alg».proof.Proof.LibMirror
import Idealize.ShloMosaic.PureOps.Ideal.Laws

noncomputable section

namespace Cert.KernelIdeal.Payload

open Cert.KernelIdeal Cert.KernelIdeal.Gen Idealize.ShloMosaic Idealize.ShloMosaic.ValueIdx
open Cert.Fold

/-- The row-block coordinate compared with zero: the one word when it is zero, the zero word otherwise. -/
theorem first_word (n : ℕ) (hn : n < 16) :
    Scalar.cmpi .eq (BitVec.ofNat 32 n) 0#32 = if n = 0 then 1#1 else 0#1 := by
  interval_cases n <;> decide

/-- A select on that comparison takes its first operand in the first row block and its second in the others. -/
theorem select_first {α : Type} (n : ℕ) (hn : n < 16) (A B : α) :
    Scalar.select (Scalar.cmpi .eq (BitVec.ofNat 32 n) 0#32) A B = if n = 0 then A else B := by
  rw [first_word n hn]
  by_cases h : n = 0
  · rw [if_pos h, if_pos h]; exact select_one _ _
  · rw [if_neg h, if_neg h]; exact select_zero _ _

/-- The body's row-folded block, read at (0, r, w, c): the block's row fold. -/
theorem pay1_apply (i : grid0.Coords) (hi : (i 1).val < 16) (v0 : Vec Ideal S1x32x512x32 .f32)
    (r : Fin 32) (w : Fin 512) (c : Fin 32) :
    k0_pay1 (F := Ideal) i v0 (ix4 (0 : Fin 1) r w c)
      = blockRows (decide ((i 1).val = 0)) v0 (ix4 (0 : Fin 1) r w c) := by
  rw [blockRows_apply]
  unfold k0_pay1
  dsimp only
  by_cases hr : 16 ≤ r.val
  · rw [if_pos hr]
    -- a lower row: the second piece of the join, at row r - 16
    refine (concatenate_pair_apply_right (t := S1x32x512x32) (s₁ := S1x16x512x32) (s₂ := S1x16x512x32) (1 : Fin 4) _ _ concatenates_S1x16x512x32_S1x16x512x32_S1x32x512x32_d1
      (ix4 (0 : Fin 1) r w c : S1x32x512x32.Idx) rfl rfl
      (ix4 (0 : Fin 1) (⟨r.val - 16, by omega⟩ : Fin 16) w c : S1x16x512x32.Idx) ?_ ?_).trans ?_
    · intro b hb
      match b with
      | ⟨0, _⟩ => rfl
      | ⟨1, _⟩ => exact absurd rfl hb
      | ⟨2, _⟩ => rfl
      | ⟨3, _⟩ => rfl
    · show (r.val - 16) + 16 = r.val
      omega
    · refine (addf_apply _ _ _).trans (congrArg₂ (fun p q : EReal => p + q) ?_ ?_)
      · -- the lower rows are cut at row 16
        exact slice4_axis1_apply 16 v0 _ (0 : Fin 1) (⟨r.val - 16, by omega⟩ : Fin 16) w c r
          (by show r.val = 16 + (r.val - 16); omega)
      · refine (congrFun (select_first (i 1).val hi _ _) _).trans ?_
        by_cases h0 : (i 1).val = 0
        · rw [if_pos h0, decide_eq_true h0, if_pos rfl]
          -- the reversed upper rows at row r - 16: upper row 15 - (r - 16) = 31 - r
          refine (Mirror.mirror_axis1_apply (n0 := 1) (L := 16) (n2 := 512) (n3 := 32)
            (extractStridedSlice S1x16x512x32 ![0, 0, 0, 0] v0 slices_S1x32x512x32_o0_0_0_0_S1x16x512x32)
            concatenates_S1x1x512x32_S1x1x512x32_S1x1x512x32_S1x1x512x32_S1x1x512x32_S1x1x512x32_S1x1x512x32_S1x1x512x32_S1x1x512x32_S1x1x512x32_S1x1x512x32_S1x1x512x32_S1x1x512x32_S1x1x512x32_S1x1x512x32_S1x1x512x32_S1x16x512x32_d1
            (0 : Fin 1) (⟨r.val - 16, by omega⟩ : Fin 16) w c).trans ?_
          exact slice4_axis1_apply 0 v0 _ (0 : Fin 1) _ w c (⟨31 - r.val, by omega⟩ : Fin 32)
            (by show 31 - r.val = 0 + (16 - 1 - (r.val - 16)); omega)
        · rw [if_neg h0, decide_eq_false h0, if_neg (by decide : ¬ (false = true))]
          exact Ideal.ofBits_zero_f32
  · rw [if_neg hr]
    -- an upper row: the first piece of the join
    refine (concatenate_pair_apply_left (t := S1x32x512x32) (s₁ := S1x16x512x32) (s₂ := S1x16x512x32) (1 : Fin 4) _ _ concatenates_S1x16x512x32_S1x16x512x32_S1x32x512x32_d1
      (ix4 (0 : Fin 1) r w c : S1x32x512x32.Idx) rfl
      (ix4 (0 : Fin 1) (⟨r.val, by omega⟩ : Fin 16) w c : S1x16x512x32.Idx) ?_).trans ?_
    · intro b
      match b with
      | ⟨0, _⟩ => rfl
      | ⟨1, _⟩ => rfl
      | ⟨2, _⟩ => rfl
      | ⟨3, _⟩ => rfl
    · exact slice4_axis1_apply 0 v0 _ (0 : Fin 1) (⟨r.val, by omega⟩ : Fin 16) w c r (by show r.val = 0 + r.val; omega)

/-- The first stored piece, columns 0 .. 15: the block's folds there. -/
theorem pay2_apply (i : grid0.Coords) (hi : (i 1).val < 16) (v0 : Vec Ideal S1x32x512x32 .f32)
    (r : Fin 32) (w : Fin 16) (c : Fin 32) :
    k0_pay2 (F := Ideal) i v0 (ix4 (0 : Fin 1) r w c)
      = blockFold (decide ((i 1).val = 0)) v0 (ix4 (0 : Fin 1) r (⟨w.val, by omega⟩ : Fin 512) c) := by
  unfold k0_pay2
  dsimp only
  refine (slice4_axis2_apply 0 (k0_pay1 (F := Ideal) i v0) _ (0 : Fin 1) r w c (⟨w.val, by omega⟩ : Fin 512)
    (by show w.val = 0 + w.val; omega)).trans ?_
  exact (pay1_apply i hi v0 r _ c).trans (blockFold_left _ _ _ _ _ _ (by show w.val < 16; omega)).symm

/-- The third stored piece, columns 32 .. 511: the block's folds there. -/
theorem pay3_apply (i : grid0.Coords) (hi : (i 1).val < 16) (v0 : Vec Ideal S1x32x512x32 .f32)
    (r : Fin 32) (w : Fin 480) (c : Fin 32) :
    k0_pay3 (F := Ideal) i v0 (ix4 (0 : Fin 1) r w c)
      = blockFold (decide ((i 1).val = 0)) v0 (ix4 (0 : Fin 1) r (⟨32 + w.val, by omega⟩ : Fin 512) c) := by
  unfold k0_pay3
  dsimp only
  refine (slice4_axis2_apply 32 (k0_pay1 (F := Ideal) i v0) _ (0 : Fin 1) r w c (⟨32 + w.val, by omega⟩ : Fin 512)
    rfl).trans ?_
  exact (pay1_apply i hi v0 r _ c).trans (blockFold_right _ _ _ _ _ _ (by show 32 ≤ 32 + w.val; omega)).symm

/-- The second stored piece, columns 16 .. 31: the block's folds there, the mirrored column added. -/
theorem pay4_apply (i : grid0.Coords) (hi : (i 1).val < 16) (v0 : Vec Ideal S1x32x512x32 .f32)
    (r : Fin 32) (w : Fin 16) (c : Fin 32) :
    k0_pay4 (F := Ideal) i v0 (ix4 (0 : Fin 1) r w c)
      = blockFold (decide ((i 1).val = 0)) v0 (ix4 (0 : Fin 1) r (⟨16 + w.val, by omega⟩ : Fin 512) c) := by
  unfold k0_pay4
  dsimp only
  rw [blockFold_mid _ _ _ _ _ _ (by show 16 ≤ 16 + w.val ∧ 16 + w.val < 32; omega)]
  refine (addf_apply _ _ _).trans (congrArg₂ (fun p q : EReal => p + q) ?_ ?_)
  · refine (slice4_axis2_apply 16 (k0_pay1 (F := Ideal) i v0) _ (0 : Fin 1) r w c (⟨16 + w.val, by omega⟩ : Fin 512)
      rfl).trans ?_
    exact pay1_apply i hi v0 r _ c
  · -- the reversed columns 0 .. 15 at column w: column 15 - w, the mirror image of column 16 + w
    refine (Mirror.mirror_axis2_apply (n0 := 1) (n1 := 32) (L := 16) (n3 := 32)
      (extractStridedSlice S1x32x16x32 ![0, 0, 0, 0] (k0_pay1 (F := Ideal) i v0) slices_S1x32x512x32_o0_0_0_0_S1x32x16x32)
      concatenates_S1x32x1x32_S1x32x1x32_S1x32x1x32_S1x32x1x32_S1x32x1x32_S1x32x1x32_S1x32x1x32_S1x32x1x32_S1x32x1x32_S1x32x1x32_S1x32x1x32_S1x32x1x32_S1x32x1x32_S1x32x1x32_S1x32x1x32_S1x32x1x32_S1x32x16x32_d2
      (0 : Fin 1) r w c).trans ?_
    refine (slice4_axis2_apply 0 (k0_pay1 (F := Ideal) i v0) _ (0 : Fin 1) r _ c
      (mirror (⟨16 + w.val, by omega⟩ : Fin 512)) (by rw [mirror_val]; show 31 - (16 + w.val) = 0 + (16 - 1 - w.val); omega)).trans ?_
    exact pay1_apply i hi v0 r _ c

end Cert.KernelIdeal.Payload

end
-- ==== Proof.Block.lean ====
/-
  FROM THE KERNEL'S BLOCKS TO ITS RESULT ARRAY.

  The grid has one point per batch entry b and row block q; at that point the input block is rows 32 q .. 32 q + 31
  of batch entry b, and the body leaves in the output's staging buffer three stored pieces that together are the
  block's folds of the input block ('out_eq'). What the point writes back is therefore block (b, q) of the two folds
  of the whole argument array ('flushed_eq'); every array position lies in the block of the point (b, row / 32)
  ('cover'), so the result array ends as the two folds of the argument ('final', 'run').
-/
import proofs.«155534_j63909113364644_2_alg».proof.Proof.Gen.KernelIdeal.Value
import proofs.«155534_j63909113364644_2_alg».proof.Proof.Payload
import Idealize.ShloMosaic.Lib.Pipeline.Value
import Idealize.ShloMosaic.Lib.Tactic

noncomputable section

namespace Cert.KernelIdeal.Block

open Cert.KernelIdeal Cert.KernelIdeal.Gen Idealize.ShloMosaic Idealize.ShloMosaic.TcCoe Idealize.SL.Sem
open Idealize.ShloMosaic.ValueIdx Cert.Fold
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-- What the body leaves in the output's staging buffer: the block's folds of the input block. Each of the three
    stored pieces is that function read where the piece's rectangle lies. -/
theorem out_eq (c : Dev nD) (i : grid0.Coords) (hi : (i 1).val < 16)
    (a2 : Memref sig .tc .vmem S1x32x512x32 .f32) (h2 : a2.IsWhole)
    (a3 : Memref sig .tc .vmem S1x32x512x32 .f32) (h3 : a3.IsWhole) (x0 : Vec Ideal S1x32x512x32 .f32) :
    out0_A_1 (F := Ideal) c i a2 h2 a3 h3 x0 = blockFold (decide ((i 1).val = 0)) x0 := by
  unfold out0_A_1
  rw [View.read_writes_eq_canon _ _ _ (cover0_A_1 c i a2 h2 a3 h3 x0)]
  funext y
  refine View.canon_apply_of_pieces (blockFold (decide ((i 1).val = 0)) x0) _ ?_ y (cover0_A_1 c i a2 h2 a3 h3 x0 y)
  unfold kernelRun0_A
  dsimp only
  sl_unfold_words
  simp only [View.readAt_eq_ld, h2.read_unread, View.ld_unit_zero (S := S1x32x512x32) hz]
  intro p hp
  rcases List.mem_cons.mp hp with rfl | hp
  · -- columns 32 .. 511
    show ∀ x : (⟨4, ![1, 32, 480, 32]⟩ : Shape).Idx, k0_pay3 (F := Ideal) i x0 x
      = blockFold (decide ((i 1).val = 0)) x0
          ((Rect.unit (s := S1x32x512x32) ![0, 0, 32, 0] ![1, 32, 480, 32] inb_S1x32x512x32_S1x32x480x32_0_0_32_0).emb x)
    intro x
    have hx : (Rect.unit (s := S1x32x512x32) ![0, 0, 32, 0] ![1, 32, 480, 32] inb_S1x32x512x32_S1x32x480x32_0_0_32_0).emb x
        = ix4 (0 : Fin 1) (x 1) (⟨32 + (x 2).val, by have h : (x 2).val < 480 := (x 2).isLt; omega⟩ : Fin 512) (x 3) := by
      funext a
      refine Fin.ext ?_
      match a with
      | ⟨0, _⟩ => show 0 + 1 * (x 0).val = 0; have : (x 0).val < 1 := (x 0).isLt; omega
      | ⟨1, _⟩ => show 0 + 1 * (x 1).val = (x 1).val; omega
      | ⟨2, _⟩ => show 32 + 1 * (x 2).val = 32 + (x 2).val; omega
      | ⟨3, _⟩ => show 0 + 1 * (x 3).val = (x 3).val; omega
    have hx' : x = ix4 (0 : Fin 1) (x 1) (x 2) (x 3) := by
      funext a
      match a with
      | ⟨0, _⟩ => exact Fin.fin_one_eq_zero (x 0)
      | ⟨1, _⟩ => rfl
      | ⟨2, _⟩ => rfl
      | ⟨3, _⟩ => rfl
    rw [hx]
    exact (congrArg (k0_pay3 (F := Ideal) i x0) hx').trans (Payload.pay3_apply i hi x0 (x 1) (x 2) (x 3))
  rcases List.mem_cons.mp hp with rfl | hp
  · -- columns 16 .. 31
    show ∀ x : (⟨4, ![1, 32, 16, 32]⟩ : Shape).Idx, k0_pay4 (F := Ideal) i x0 x
      = blockFold (decide ((i 1).val = 0)) x0
          ((Rect.unit (s := S1x32x512x32) ![0, 0, 16, 0] ![1, 32, 16, 32] inb_S1x32x512x32_S1x32x16x32_0_0_16_0).emb x)
    intro x
    have hx : (Rect.unit (s := S1x32x512x32) ![0, 0, 16, 0] ![1, 32, 16, 32] inb_S1x32x512x32_S1x32x16x32_0_0_16_0).emb x
        = ix4 (0 : Fin 1) (x 1) (⟨16 + (x 2).val, by have h : (x 2).val < 16 := (x 2).isLt; omega⟩ : Fin 512) (x 3) := by
      funext a
      refine Fin.ext ?_
      match a with
      | ⟨0, _⟩ => show 0 + 1 * (x 0).val = 0; have : (x 0).val < 1 := (x 0).isLt; omega
      | ⟨1, _⟩ => show 0 + 1 * (x 1).val = (x 1).val; omega
      | ⟨2, _⟩ => show 16 + 1 * (x 2).val = 16 + (x 2).val; omega
      | ⟨3, _⟩ => show 0 + 1 * (x 3).val = (x 3).val; omega
    have hx' : x = ix4 (0 : Fin 1) (x 1) (x 2) (x 3) := by
      funext a
      match a with
      | ⟨0, _⟩ => exact Fin.fin_one_eq_zero (x 0)
      | ⟨1, _⟩ => rfl
      | ⟨2, _⟩ => rfl
      | ⟨3, _⟩ => rfl
    rw [hx]
    exact (congrArg (k0_pay4 (F := Ideal) i x0) hx').trans (Payload.pay4_apply i hi x0 (x 1) (x 2) (x 3))
  rcases List.mem_cons.mp hp with rfl | hp
  · -- columns 0 .. 15
    show ∀ x : (⟨4, ![1, 32, 16, 32]⟩ : Shape).Idx, k0_pay2 (F := Ideal) i x0 x
      = blockFold (decide ((i 1).val = 0)) x0
          ((Rect.unit (s := S1x32x512x32) ![0, 0, 0, 0] ![1, 32, 16, 32] inb_S1x32x512x32_S1x32x16x32_0_0_0_0).emb x)
    intro x
    have hx : (Rect.unit (s := S1x32x512x32) ![0, 0, 0, 0] ![1, 32, 16, 32] inb_S1x32x512x32_S1x32x16x32_0_0_0_0).emb x
        = ix4 (0 : Fin 1) (x 1) (⟨(x 2).val, by have h : (x 2).val < 16 := (x 2).isLt; omega⟩ : Fin 512) (x 3) := by
      funext a
      refine Fin.ext ?_
      match a with
      | ⟨0, _⟩ => show 0 + 1 * (x 0).val = 0; have : (x 0).val < 1 := (x 0).isLt; omega
      | ⟨1, _⟩ => show 0 + 1 * (x 1).val = (x 1).val; omega
      | ⟨2, _⟩ => show 0 + 1 * (x 2).val = (x 2).val; omega
      | ⟨3, _⟩ => show 0 + 1 * (x 3).val = (x 3).val; omega
    have hx' : x = ix4 (0 : Fin 1) (x 1) (x 2) (x 3) := by
      funext a
      match a with
      | ⟨0, _⟩ => exact Fin.fin_one_eq_zero (x 0)
      | ⟨1, _⟩ => rfl
      | ⟨2, _⟩ => rfl
      | ⟨3, _⟩ => rfl
    rw [hx]
    exact (congrArg (k0_pay2 (F := Ideal) i x0) hx').trans (Payload.pay2_apply i hi x0 (x 1) (x 2) (x 3))
  · cases hp

/-- The printed index maps, decided over the grid: both windows' block index at a point is (batch entry, row block,
    0, 0). -/
theorem idx_facts : ∀ t : Fin cfg0.N,
    win0_0.index t (0 : Fin 4) = (grid0.coords t 0).val ∧ win0_0.index t (1 : Fin 4) = (grid0.coords t 1).val
    ∧ win0_0.index t (2 : Fin 4) = 0 ∧ win0_0.index t (3 : Fin 4) = 0
    ∧ win0_1.index t (0 : Fin 4) = (grid0.coords t 0).val ∧ win0_1.index t (1 : Fin 4) = (grid0.coords t 1).val
    ∧ win0_1.index t (2 : Fin 4) = 0 ∧ win0_1.index t (3 : Fin 4) = 0 :=
  (by decide +kernel : ∀ t : Fin grid0.N, _)

/-- Every (batch entry, row block) pair is some point's. -/
theorem idx_onto : ∀ (q0 : Fin 8) (q1 : Fin 16), ∃ t : Fin cfg0.N,
    (grid0.coords t 0).val = q0.val ∧ (grid0.coords t 1).val = q1.val :=
  (by decide +kernel : ∀ (q0 : Fin 8) (q1 : Fin 16), ∃ t : Fin grid0.N,
    (grid0.coords t 0).val = q0.val ∧ (grid0.coords t 1).val = q1.val)

/-- A point's row-block coordinate is below 16. -/
theorem coord_lt (t : Fin cfg0.N) : (grid0.coords t 1).val < 16 := (grid0.coords t 1).isLt

/-- What point t writes back is its block of the two folds of the argument array. -/
theorem flushed_eq (c : Dev nD) (t : Fin cfg0.N) :
    (dats m 0 c).flushed 1 t = ((cfg0.win 1).blk t).view.read (Elt Ideal) (fold2 (V m c main_arg0)) := by
  rw [Value.flushed1_A, out_eq c (grid0.coords t) (coord_lt t) (ms0_0 t) (hs0_0 t) (ms0_1 t) (hs0_1 t) (iblk m c 0 t)]
  obtain ⟨e0, e1, e2, e3, f0, f1, f2, f3⟩ := idx_facts t
  funext j
  show blockFold (decide ((grid0.coords t 1).val = 0)) (iblk m c 0 t) ((cfg0.win 1).xinj (grid0.coords t) j)
    = fold2 (V m c main_arg0) (((cfg0.win 1).blk t).view.emb j)
  refine Fold.block_eq (V m c main_arg0) (grid0.coords t 0) (grid0.coords t 1) (iblk m c 0 t) ?_ _ _ ?_ ?_ ?_ ?_
  · -- the input block is rows 32 q .. 32 q + 31 of batch entry b
    intro r w c'
    show V m c main_arg0 (((cfg0.win 0).blk t).view.emb (ix4 (0 : Fin 1) r w c')) = _
    refine congrArg (V m c main_arg0) (funext fun a => Fin.ext ?_)
    match a with
    | ⟨0, _⟩ => show win0_0.index t (0 : Fin 4) * 1 + 1 * 0 = (grid0.coords t 0).val; omega
    | ⟨1, _⟩ => show win0_0.index t (1 : Fin 4) * 32 + 1 * r.val = 32 * (grid0.coords t 1).val + r.val; omega
    | ⟨2, _⟩ => show win0_0.index t (2 : Fin 4) * 512 + 1 * w.val = w.val; omega
    | ⟨3, _⟩ => show win0_0.index t (3 : Fin 4) * 32 + 1 * c'.val = c'.val; omega
  · show win0_1.index t (0 : Fin 4) * 1 + 1 * (j 0).val = (grid0.coords t 0).val
    have : (j 0).val < 1 := (j 0).isLt
    omega
  · show win0_1.index t (1 : Fin 4) * 32 + 1 * (j 1).val = 32 * (grid0.coords t 1).val + (j 1).val
    omega
  · show win0_1.index t (2 : Fin 4) * 512 + 1 * (j 2).val = (j 2).val
    omega
  · show win0_1.index t (3 : Fin 4) * 32 + 1 * (j 3).val = (j 3).val
    omega

/-- An index of the array is in point t's block iff each coordinate is in the block's range on its axis. -/
theorem mem_blk (t : Fin cfg0.N) (i : S8x512x512x32.Idx) :
    i ∈ ((cfg0.win 1).blk t).view.set ↔ ∀ a : Fin 4, win0_1.index t a * S1x32x512x32.size a ≤ (i a).val
      ∧ (i a).val < win0_1.index t a * S1x32x512x32.size a + S1x32x512x32.size a := by
  show i ∈ ((View.whole main_v0).slice (win0_1.rect t)).set ↔ _
  rw [View.set_slice_whole, Rect.mem_set_unit]
  exact Iff.rfl

/-- Every position of the array lies in the block of the point (batch entry, row / 32). -/
theorem cover (i : S8x512x512x32.Idx) :
    ∃ t : Fin cfg0.N, (cfg0.win 1).flush t = true ∧ i ∈ ((cfg0.win 1).blk t).view.set := by
  have hi0 : (i 0).val < 8 := (i 0).isLt
  have hi1 : (i 1).val < 512 := (i 1).isLt
  have hi2 : (i 2).val < 512 := (i 2).isLt
  have hi3 : (i 3).val < 32 := (i 3).isLt
  obtain ⟨t, ht0, ht1⟩ := idx_onto ⟨(i 0).val, hi0⟩ ⟨(i 1).val / 32, by omega⟩
  have ht0' : (grid0.coords t 0).val = (i 0).val := ht0
  have ht1' : (grid0.coords t 1).val = (i 1).val / 32 := ht1
  obtain ⟨e0, e1, e2, e3, f0, f1, f2, f3⟩ := idx_facts t
  refine ⟨t, flush0_1 t, ?_⟩
  rw [mem_blk]
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 32 ≤ (i 1).val ∧ (i 1).val < win0_1.index t (1 : Fin 4) * 32 + 32
    omega
  | ⟨2, _⟩ =>
    show win0_1.index t (2 : Fin 4) * 512 ≤ (i 2).val ∧ (i 2).val < win0_1.index t (2 : Fin 4) * 512 + 512
    omega
  | ⟨3, _⟩ =>
    show win0_1.index t (3 : Fin 4) * 32 ≤ (i 3).val ∧ (i 3).val < win0_1.index t (3 : Fin 4) * 32 + 32
    omega

/-- The result array after the run: the two folds of the argument array. -/
theorem final (c : Dev nD) : (dats m 0 c).arrAt 1 cfg0.N = fold2 (V m c main_arg0) :=
  (dats m 0 c).arrAt_eq_of_cover 1 (fold2 (V m c main_arg0)) (fun t _ => flushed_eq m c t) cover

/-- The kernel's run: it ends with the result at the two folds of the argument, the argument unchanged. -/
theorem run : θ_run defs (onTc (τ := τ) (main (F := Ideal))) ⟨m, fun _ => 0, ρ⟩ fun r => ∀ c : Dev nD,
      r.2.mem ((c : Thread nD τ).loc main_v0) = fold2 (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Block

end
-- ==== Proof.LibScatterColumn.lean ====
/-
  A COLUMN SCATTER-ADD IS THE VECTOR SCATTER-ADD VIEWED AS A COLUMN (a general lemma, over the extended reals).

  An accumulating scatter with one scalar start index per update can be written in two ways.

  * The VECTOR form: the operand is a vector of extent N, the updates a vector of extent E, the scatter indices an
    [E, 1] array whose second axis is the index vector's. There is no window axis; the operand's only axis is an
    inserted window axis and is the axis the start index addresses. Update e lands at operand position idx[e, 0].

  * The COLUMN form: the operand is an [N, 1] column, the updates an [E, 1] column, the scatter indices the same
    [E, 1] array. The updates' second axis is a window axis of extent 1 that goes to the operand's second axis; the
    operand's first axis is inserted and is the one the start index addresses. Update (e, 0) lands at operand position
    (idx[e, 0], 0 + 0).

  In both forms the start index is read signed and is not clamped, and an update whose position falls outside the
  operand is dropped. At the ideal instance the result at a position is the operand there plus the sum of the updates
  that land there. So when the operands agree (x n = x' (n, 0)) and the updates agree (u e = u' (e, 0)), the two results
  agree: result n of the vector form is result (n, 0) of the column form.

  The proof: an update index j lands on position i exactly when start + window coordinate equals i's coordinate on
  every axis ('resultIdx?_eq_some_iff': the in-range test is then implied by i's own bounds). For the two sets of
  dimension numbers the starts and window coordinates are computed axis by axis ('vec_start' … 'col_window1'); on the
  column's second axis the condition reads 0 + (j 1) = 0, which holds because that axis has extent 1. Hence both
  "lands on n" conditions are the same equation idx[j 0, 0] = n ('vec_hit', 'col_hit'), and the bijection
  e ↦ (e, 0) between the two update index sets ('colEquiv') carries one sum to the other. All extents stay symbolic.
-/
import Idealize.ShloMosaic.Lib.ValueIdx
import Idealize.ShloMosaic.PureOps.Ideal

open scoped BigOperators
open Idealize.ShloMosaic Idealize.ShloMosaic.ValueIdx

namespace Cert.ScatterColumn

/-- An update index j lands on operand index i exactly when, on every operand axis, the (signed, unclamped) start
    plus the window coordinate is i's coordinate. The in-range condition of the landing position follows from i's
    own bounds, so it does not appear on the right. Holds for any scatter dimension numbers. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hi a
      have h1 := h a
      rw [← hi]
      show _ = (((d.start j idx a + (d.window j a : ℤ)).toNat : ℕ) : ℤ)
      omega
    · intro hi
      funext a
      apply Fin.ext
      have h1 := hi a
      have h2 := h a
      show (d.start j idx a + (d.window j a : ℤ)).toNat = (i a).val
      omega
  · rename_i h
    constructor
    · intro hi; cases hi
    · intro hi
      exfalso
      apply h
      intro a
      have h1 := hi a
      have h2 := (i a).isLt
      omega

/-- The VECTOR form's dimension numbers: operand [N], scatter indices [E, 1] (index vector on axis 1), updates [E];
    no update window axis, operand axis 0 inserted and addressed by the one start-index component. -/
abbrev vecDims (N E : ℕ) (w1 : ScatterDims.WF (⟨1, ![N]⟩ : Shape) ⟨2, ![E, 1]⟩ ⟨1, ![E]⟩ [] [0] [0] 1) :
    ScatterDims (⟨1, ![N]⟩ : Shape) ⟨2, ![E, 1]⟩ ⟨1, ![E]⟩ := ⟨[], [0], [0], 1, w1⟩

/-- The COLUMN form's dimension numbers: operand [N, 1], scatter indices [E, 1] (index vector on axis 1), updates
    [E, 1]; update axis 1 is a window axis going to operand axis 1, operand axis 0 inserted and addressed by the one
    start-index component. -/
abbrev colDims (N E : ℕ) (w2 : ScatterDims.WF (⟨2, ![N, 1]⟩ : Shape) ⟨2, ![E, 1]⟩ ⟨2, ![E, 1]⟩ [1] [0] [0] 1) :
    ScatterDims (⟨2, ![N, 1]⟩ : Shape) ⟨2, ![E, 1]⟩ ⟨2, ![E, 1]⟩ := ⟨[1], [0], [0], 1, w2⟩

/-- Vector form: the start on the operand's axis for update e is the scatter index idx[e, 0], read signed. -/
theorem vec_start {N E : ℕ} (w1 : ScatterDims.WF (⟨1, ![N]⟩ : Shape) ⟨2, ![E, 1]⟩ ⟨1, ![E]⟩ [] [0] [0] 1)
    (j : (⟨1, ![E]⟩ : Shape).Idx) (idx : IVec ⟨2, ![E, 1]⟩ 32) :
    (vecDims N E w1).start j idx 0 = (idx (ix2 (j 0) (0 : Fin 1))).toInt := by
  have hmem : (0 : Fin 1) ∈ (vecDims N E w1).scatterDimsToOperandDims := List.mem_singleton.mpr rfl
  unfold ScatterDims.start
  rw [dif_pos hmem]
  have hsi : (vecDims N E w1).siIdx j ⟨List.idxOf (0 : Fin 1) (vecDims N E w1).scatterDimsToOperandDims,
      List.idxOf_lt_length_iff.2 hmem⟩ = ix2 (j 0) (0 : Fin 1) := by
    funext b; refine Fin.ext ?_
    match b with
    | ⟨0, _⟩ => rfl
    | ⟨1, _⟩ => rfl
  rw [hsi]
  rfl

/-- Vector form: the operand's axis is an inserted window axis, so the window coordinate on it is 0. -/
theorem vec_window {N E : ℕ} (w1 : ScatterDims.WF (⟨1, ![N]⟩ : Shape) ⟨2, ![E, 1]⟩ ⟨1, ![E]⟩ [] [0] [0] 1)
    (j : (⟨1, ![E]⟩ : Shape).Idx) : (vecDims N E w1).window j 0 = 0 := by
  rfl

/-- Column form: the start on operand axis 0 for update (e, k) is the scatter index idx[e, 0], read signed. -/
theorem col_start0 {N E : ℕ}
    (w2 : ScatterDims.WF (⟨2, ![N, 1]⟩ : Shape) ⟨2, ![E, 1]⟩ ⟨2, ![E, 1]⟩ [1] [0] [0] 1)
    (j : (⟨2, ![E, 1]⟩ : Shape).Idx) (idx : IVec ⟨2, ![E, 1]⟩ 32) :
    (colDims N E w2).start j idx 0 = (idx (ix2 (j 0) (0 : Fin 1))).toInt := by
  have hmem : (0 : Fin 2) ∈ (colDims N E w2).scatterDimsToOperandDims := List.mem_singleton.mpr rfl
  unfold ScatterDims.start
  rw [dif_pos hmem]
  have hsi : (colDims N E w2).siIdx j ⟨List.idxOf (0 : Fin 2) (colDims N E w2).scatterDimsToOperandDims,
      List.idxOf_lt_length_iff.2 hmem⟩ = ix2 (j 0) (0 : Fin 1) := by
    funext b; refine Fin.ext ?_
    match b with
    | ⟨0, _⟩ => rfl
    | ⟨1, _⟩ => rfl
  rw [hsi]
  rfl

/-- Column form: operand axis 1 is not addressed by the start index, so the start on it is 0. -/
theorem col_start1 {N E : ℕ}
    (w2 : ScatterDims.WF (⟨2, ![N, 1]⟩ : Shape) ⟨2, ![E, 1]⟩ ⟨2, ![E, 1]⟩ [1] [0] [0] 1)
    (j : (⟨2, ![E, 1]⟩ : Shape).Idx) (idx : IVec ⟨2, ![E, 1]⟩ 32) :
    (colDims N E w2).start j idx 1 = 0 := by
  rfl

/-- Column form: operand axis 0 is an inserted window axis, so the window coordinate on it is 0. -/
theorem col_window0 {N E : ℕ}
    (w2 : ScatterDims.WF (⟨2, ![N, 1]⟩ : Shape) ⟨2, ![E, 1]⟩ ⟨2, ![E, 1]⟩ [1] [0] [0] 1)
    (j : (⟨2, ![E, 1]⟩ : Shape).Idx) : (colDims N E w2).window j 0 = 0 := by
  rfl

/-- Column form: the window coordinate on operand axis 1 is the update index's coordinate on its window axis 1. -/
theorem col_window1 {N E : ℕ}
    (w2 : ScatterDims.WF (⟨2, ![N, 1]⟩ : Shape) ⟨2, ![E, 1]⟩ ⟨2, ![E, 1]⟩ [1] [0] [0] 1)
    (j : (⟨2, ![E, 1]⟩ : Shape).Idx) : (colDims N E w2).window j 1 = (j 1).val := by
  rfl

/-- Vector form: update e lands on position n exactly when idx[e, 0], read signed, is n. -/
theorem vec_hit {N E : ℕ} (w1 : ScatterDims.WF (⟨1, ![N]⟩ : Shape) ⟨2, ![E, 1]⟩ ⟨1, ![E]⟩ [] [0] [0] 1)
    (j : (⟨1, ![E]⟩ : Shape).Idx) (idx : IVec ⟨2, ![E, 1]⟩ 32) (n : Fin N) :
    (vecDims N E w1).resultIdx? j idx = some (ix1 n) ↔ (idx (ix2 (j 0) (0 : Fin 1))).toInt = (n.val : ℤ) := by
  rw [resultIdx?_eq_some_iff]
  constructor
  · intro h
    have h0 := h 0
    rw [vec_start, vec_window] at h0
    simp only [Nat.cast_zero, add_zero] at h0
    exact h0
  · intro h a
    obtain rfl : a = 0 := Subsingleton.elim _ _
    rw [vec_start, vec_window]
    simp only [Nat.cast_zero, add_zero]
    exact h

/-- Column form: update (e, k) lands on position (n, 0) exactly when idx[e, 0], read signed, is n: on the second
    axis the condition is 0 + k = 0, true because that axis has extent 1. -/
theorem col_hit {N E : ℕ}
    (w2 : ScatterDims.WF (⟨2, ![N, 1]⟩ : Shape) ⟨2, ![E, 1]⟩ ⟨2, ![E, 1]⟩ [1] [0] [0] 1)
    (j : (⟨2, ![E, 1]⟩ : Shape).Idx) (idx : IVec ⟨2, ![E, 1]⟩ 32) (n : Fin N) :
    (colDims N E w2).resultIdx? j idx = some (ix2 n (0 : Fin 1)) ↔
      (idx (ix2 (j 0) (0 : Fin 1))).toInt = (n.val : ℤ) := by
  rw [resultIdx?_eq_some_iff]
  constructor
  · intro h
    have h0 := h 0
    rw [col_start0, col_window0] at h0
    simp only [Nat.cast_zero, add_zero] at h0
    exact h0
  · intro h a
    match a with
    | ⟨0, _⟩ =>
      show (colDims N E w2).start j idx 0 + (((colDims N E w2).window j 0 : ℕ) : ℤ) = _
      rw [col_start0, col_window0]
      simp only [Nat.cast_zero, add_zero]
      exact h
    | ⟨1, _⟩ =>
      show (colDims N E w2).start j idx 1 + (((colDims N E w2).window j 1 : ℕ) : ℤ) = _
      rw [col_start1, col_window1]
      have := idx2_lt1 j
      show (0 : ℤ) + (((j 1).val : ℕ) : ℤ) = ((0 : ℕ) : ℤ)
      omega

/-- The update index sets of the two forms correspond by e ↦ (e, 0): the column's second axis has extent 1. -/
def colEquiv (E : ℕ) : (⟨1, ![E]⟩ : Shape).Idx ≃ (⟨2, ![E, 1]⟩ : Shape).Idx where
  toFun j := ix2 (j 0) (0 : Fin 1)
  invFun j := ix1 (j 0)
  left_inv j := (eq_ix1 j).symm
  right_inv j := by
    have h1 : (j 1) = (0 : Fin 1) := Fin.ext (by have := idx2_lt1 j; show (j 1).val = 0; omega)
    have h2 : j = ix2 (j 0) (0 : Fin 1) := by
      funext a
      match a with
      | ⟨0, _⟩ => rfl
      | ⟨1, _⟩ => exact h1
    exact h2.symm

/-- A COLUMN SCATTER-ADD IS THE VECTOR SCATTER-ADD VIEWED AS A COLUMN. With the same [E, 1] scatter indices, operands
    that agree (x n = x' (n, 0)) and updates that agree (u e = u' (e, 0)), the accumulating scatter of the vector
    updates into the vector operand, read at n, equals the accumulating scatter of the column updates (window axis of
    extent 1) into the column operand, read at (n, 0). Extents N and E are arbitrary; the well-formedness proofs of
    the two sets of dimension numbers are arbitrary. -/
theorem scatterAdd_column {N E : ℕ}
    (w1 : ScatterDims.WF (⟨1, ![N]⟩ : Shape) ⟨2, ![E, 1]⟩ ⟨1, ![E]⟩ [] [0] [0] 1)
    (w2 : ScatterDims.WF (⟨2, ![N, 1]⟩ : Shape) ⟨2, ![E, 1]⟩ ⟨2, ![E, 1]⟩ [1] [0] [0] 1)
    (x : (⟨1, ![N]⟩ : Shape).Idx → EReal) (x' : (⟨2, ![N, 1]⟩ : Shape).Idx → EReal)
    (u : (⟨1, ![E]⟩ : Shape).Idx → EReal) (u' : (⟨2, ![E, 1]⟩ : Shape).Idx → EReal)
    (idx : IVec ⟨2, ![E, 1]⟩ 32)
    (hx : ∀ n : Fin N, x (ix1 n) = x' (ix2 n (0 : Fin 1)))
    (hu : ∀ e : Fin E, u (ix1 e) = u' (ix2 e (0 : Fin 1))) (n : Fin N) :
    Ideal.hostScatterAdd (⟨[], [0], [0], 1, w1⟩ : ScatterDims (⟨1, ![N]⟩ : Shape) ⟨2, ![E, 1]⟩ ⟨1, ![E]⟩) x idx u (ix1 n)
      = Ideal.hostScatterAdd (⟨[1], [0], [0], 1, w2⟩ : ScatterDims (⟨2, ![N, 1]⟩ : Shape) ⟨2, ![E, 1]⟩ ⟨2, ![E, 1]⟩)
          x' idx u' (ix2 n (0 : Fin 1)) := by
  show x (ix1 n) + ∑ j ∈ Finset.univ.filter (fun j => (vecDims N E w1).resultIdx? j idx = some (ix1 n)), u j
    = x' (ix2 n (0 : Fin 1)) +
      ∑ j ∈ Finset.univ.filter (fun j => (colDims N E w2).resultIdx? j idx = some (ix2 n (0 : Fin 1))), u' j
  rw [hx n]
  congr 1
  refine Finset.sum_equiv (colEquiv E) ?_ ?_
  · intro j
    rw [Finset.mem_filter, Finset.mem_filter, vec_hit, col_hit]
    simp only [Finset.mem_univ, true_and]
    rfl
  · intro j _
    rw [eq_ix1 j]
    exact hu (j 0)

/-- The column lemma in the host operation's own spelling, over arbitrary extents: the vector scatter-add read at `n`
    is the column scatter-add read at `(n, 0)`. -/
theorem host_scatter_column {N E : ℕ}
    (w1 : ScatterDims.WF (⟨1, ![N]⟩ : Shape) ⟨2, ![E, 1]⟩ ⟨1, ![E]⟩ [] [0] [0] 1)
    (w2 : ScatterDims.WF (⟨2, ![N, 1]⟩ : Shape) ⟨2, ![E, 1]⟩ ⟨2, ![E, 1]⟩ [1] [0] [0] 1)
    (x : FVec Ideal ⟨1, ![N]⟩ .f32) (x' : FVec Ideal ⟨2, ![N, 1]⟩ .f32)
    (u : FVec Ideal ⟨1, ![E]⟩ .f32) (u' : FVec Ideal ⟨2, ![E, 1]⟩ .f32)
    (idx idx' : IVec ⟨2, ![E, 1]⟩ 32) (hidx : idx = idx')
    (hx : ∀ n : Fin N, x (ix1 n) = x' (ix2 n (0 : Fin 1))) (hu : ∀ e : Fin E, u (ix1 e) = u' (ix2 e (0 : Fin 1))) (n : Fin N) :
    Host.scatterAdd (F := Ideal) (⟨[], [0], [0], 1, w1⟩ : ScatterDims (⟨1, ![N]⟩ : Shape) ⟨2, ![E, 1]⟩ ⟨1, ![E]⟩) x idx u (ix1 n)
      = Host.scatterAdd (F := Ideal) (⟨[1], [0], [0], 1, w2⟩ : ScatterDims (⟨2, ![N, 1]⟩ : Shape) ⟨2, ![E, 1]⟩ ⟨2, ![E, 1]⟩) x' idx' u' (ix2 n (0 : Fin 1)) := by
  subst hidx
  exact scatterAdd_column w1 w2 x x' u u' idx hx hu n

end Cert.ScatterColumn
-- ==== Proof.LibScatterOnce.lean ====
/-
  ONE WINDOW SCATTERED INTO AN ARRAY, read back (general lemmas; any element type, any combining function).

  The host's scatter applies the updates one after the other, each replacing the operand's element at the position it
  lands on by the body's function of that element and the update. When at most ONE update lands on a position, what
  is read there afterwards does not depend on the order:
  * a position on which exactly one update index j0 lands holds f (operand there) (update j0)  ('scatter_apply_hit');
  * a position on which no update lands holds the operand  ('scatter_apply_miss').
  Both follow from two facts on a left fold of steps read at one position ('foldl_untouched', 'foldl_touched_once').

  'window_axis1_apply' / 'window_axis2_apply': the scatter of x.at[:, o:o+m].op(u) and x.at[:, :, o:o+m].op(u) on a
  rank-4 array — one start index (a single word, read signed) addressing axis 1 (axis 2), every update axis a window
  axis. Update (a, j, c, e) lands at (a, o + j, c, e), so position (a, k, c, e) is hit exactly when o <= k < o + m,
  and then by the one update (a, k - o, c, e).
-/
import Idealize.ShloMosaic.Lib.ValueIdx
import proofs.«155534_j63909113364644_2_alg».proof.Proof.LibScatterColumn

open Idealize.ShloMosaic Idealize.ShloMosaic.ValueIdx

namespace Cert.ScatterOnce

/-- A left fold of steps read at position i: steps that leave i alone leave it as it started. -/
theorem foldl_untouched {ι A I : Type} (step : (I → A) → ι → (I → A)) (i : I) :
    ∀ (l : List ι) (x : I → A), (∀ r n, n ∈ l → step r n i = r i) → l.foldl step x i = x i := by
  intro l
  induction l with
  | nil => intro x _; rfl
  | cons n t ih =>
    intro x h
    rw [List.foldl_cons, ih (step x n) (fun r k hk => h r k (List.mem_cons_of_mem _ hk))]
    exact h x n List.mem_cons_self

/-- A left fold of steps over a list without repetition, read at position i: if entry j0 replaces the element at i by
    g of it and every other entry leaves i alone, the fold reads g of the starting element. -/
theorem foldl_touched_once {ι A I : Type} (step : (I → A) → ι → (I → A)) (i : I) (j0 : ι) (g : A → A)
    (h1 : ∀ r, step r j0 i = g (r i)) (h2 : ∀ r n, n ≠ j0 → step r n i = r i) :
    ∀ (l : List ι) (x : I → A), l.Nodup → j0 ∈ l → l.foldl step x i = g (x i) := by
  intro l
  induction l with
  | nil => intro x _ h; cases h
  | cons n t ih =>
    intro x hnd hmem
    rw [List.foldl_cons]
    have hnt : n ∉ t := (List.nodup_cons.mp hnd).1
    by_cases hn : n = j0
    · subst hn
      rw [foldl_untouched step i t (step x n) (fun r k hk => h2 r k (fun e => hnt (e ▸ hk)))]
      exact h1 x
    · have ht : j0 ∈ t := by
        rcases List.mem_cons.mp hmem with h | h
        · exact absurd h.symm hn
        · exact h
      rw [ih (step x n) (List.nodup_cons.mp hnd).2 ht, h2 x n hn]

/-- The host's scatter read at a position on which exactly one update index lands: the body's function of the
    operand there and that update. -/
theorem scatter_apply_hit {s si u : Shape} {α : Type} {w : ℕ} (d : ScatterDims s si u) (f : α → α → α) (x : s.Idx → α)
    (idx : IVec si w) (upd : u.Idx → α) (i : s.Idx) (j0 : u.Idx)
    (h0 : d.resultIdx? j0 idx = some i) (hu : ∀ j, d.resultIdx? j idx = some i → j = j0) :
    Host.scatter d f x idx upd i = f (x i) (upd j0) := by
  unfold Host.scatter
  refine (foldl_touched_once _ i (u.rowMajor j0) (fun a => f a (upd j0)) ?_ ?_ _ x (List.nodup_finRange _)
    (List.mem_finRange _))
  · intro r
    rw [Equiv.symm_apply_apply, h0]
    exact if_pos rfl
  · intro r n hn
    have hne : d.resultIdx? (u.rowMajor.symm n) idx ≠ some i := fun e =>
      hn (by rw [← hu _ e, Equiv.apply_symm_apply])
    generalize d.resultIdx? (u.rowMajor.symm n) idx = o at hne ⊢
    cases o with
    | none => rfl
    | some i' => exact if_neg (fun e => hne (by rw [e]))

/-- The host's scatter read at a position on which no update lands: the operand. -/
theorem scatter_apply_miss {s si u : Shape} {α : Type} {w : ℕ} (d : ScatterDims s si u) (f : α → α → α) (x : s.Idx → α)
    (idx : IVec si w) (upd : u.Idx → α) (i : s.Idx) (h : ∀ j, d.resultIdx? j idx ≠ some i) :
    Host.scatter d f x idx upd i = x i := by
  unfold Host.scatter
  refine foldl_untouched _ i _ x ?_
  intro r n _
  have hne := h (u.rowMajor.symm n)
  generalize d.resultIdx? (u.rowMajor.symm n) idx = o at hne ⊢
  cases o with
  | none => rfl
  | some i' => exact if_neg (fun e => hne (by rw [e]))

/-- x.at[:, o:o+m].op(u) on a rank-4 array, read at (a, k, c, e): inside the window rows the body's function of the
    operand there and update row k - o, outside them the operand. -/
theorem window_axis1_apply {α : Type} {n0 n1 n2 n3 m : ℕ}
    (wf : ScatterDims.WF (⟨4, ![n0, n1, n2, n3]⟩ : Shape) ⟨1, ![1]⟩ ⟨4, ![n0, m, n2, n3]⟩ [0, 1, 2, 3] [] [1] 0)
    (f : α → α → α) (x : (⟨4, ![n0, n1, n2, n3]⟩ : Shape).Idx → α) (idx : IVec ⟨1, ![1]⟩ 32) (o : ℕ)
    (hidx : ∀ k, (idx k).toInt = (o : ℤ)) (upd : (⟨4, ![n0, m, n2, n3]⟩ : Shape).Idx → α)
    (a : Fin n0) (k : Fin n1) (c : Fin n2) (e : Fin n3) :
    Host.scatter (⟨[0, 1, 2, 3], [], [1], 0, wf⟩ : ScatterDims (⟨4, ![n0, n1, n2, n3]⟩ : Shape) ⟨1, ![1]⟩ ⟨4, ![n0, m, n2, n3]⟩)
        f x idx upd (ix4 a k c e)
      = if h : o ≤ k.val ∧ k.val < o + m then f (x (ix4 a k c e)) (upd (ix4 a (⟨k.val - o, by omega⟩ : Fin m) c e))
        else x (ix4 a k c e) := by
  let d : ScatterDims (⟨4, ![n0, n1, n2, n3]⟩ : Shape) ⟨1, ![1]⟩ ⟨4, ![n0, m, n2, n3]⟩ := ⟨[0, 1, 2, 3], [], [1], 0, wf⟩
  have hs0 : ∀ j, d.start j idx 0 = 0 := fun j => rfl
  have hs2 : ∀ j, d.start j idx 2 = 0 := fun j => rfl
  have hs3 : ∀ j, d.start j idx 3 = 0 := fun j => rfl
  have hs1 : ∀ j, d.start j idx 1 = (o : ℤ) := by
    intro j
    unfold ScatterDims.start
    rw [dif_pos (show (1 : Fin 4) ∈ [(1 : Fin 4)] from List.mem_singleton.mpr rfl)]
    exact hidx _
  have hw0 : ∀ j : (⟨4, ![n0, m, n2, n3]⟩ : Shape).Idx, d.window j 0 = (j 0).val := fun j => rfl
  have hw1 : ∀ j : (⟨4, ![n0, m, n2, n3]⟩ : Shape).Idx, d.window j 1 = (j 1).val := fun j => rfl
  have hw2 : ∀ j : (⟨4, ![n0, m, n2, n3]⟩ : Shape).Idx, d.window j 2 = (j 2).val := fun j => rfl
  have hw3 : ∀ j : (⟨4, ![n0, m, n2, n3]⟩ : Shape).Idx, d.window j 3 = (j 3).val := fun j => rfl
  -- landing on (a, k, c, e), coordinate by coordinate
  have hland : ∀ j : (⟨4, ![n0, m, n2, n3]⟩ : Shape).Idx, d.resultIdx? j idx = some (ix4 a k c e) ↔
      (j 0).val = a.val ∧ o + (j 1).val = k.val ∧ (j 2).val = c.val ∧ (j 3).val = e.val := by
    intro j
    rw [ScatterColumn.resultIdx?_eq_some_iff]
    constructor
    · intro hj
      have h0 := hj 0; have h1 := hj 1; have h2 := hj 2; have h3 := hj 3
      rw [hs0, hw0] at h0; rw [hs1, hw1] at h1; rw [hs2, hw2] at h2; rw [hs3, hw3] at h3
      have h0' : (0 : ℤ) + (((j 0).val : ℕ) : ℤ) = ((a.val : ℕ) : ℤ) := h0
      have h1' : (o : ℤ) + (((j 1).val : ℕ) : ℤ) = ((k.val : ℕ) : ℤ) := h1
      have h2' : (0 : ℤ) + (((j 2).val : ℕ) : ℤ) = ((c.val : ℕ) : ℤ) := h2
      have h3' : (0 : ℤ) + (((j 3).val : ℕ) : ℤ) = ((e.val : ℕ) : ℤ) := h3
      omega
    · rintro ⟨h0, h1, h2, h3⟩ ax
      match ax with
      | ⟨0, _⟩ =>
        show d.start j idx 0 + ((d.window j 0 : ℕ) : ℤ) = ((a.val : ℕ) : ℤ)
        rw [hs0, hw0]; omega
      | ⟨1, _⟩ =>
        show d.start j idx 1 + ((d.window j 1 : ℕ) : ℤ) = ((k.val : ℕ) : ℤ)
        rw [hs1, hw1]; omega
      | ⟨2, _⟩ =>
        show d.start j idx 2 + ((d.window j 2 : ℕ) : ℤ) = ((c.val : ℕ) : ℤ)
        rw [hs2, hw2]; omega
      | ⟨3, _⟩ =>
        show d.start j idx 3 + ((d.window j 3 : ℕ) : ℤ) = ((e.val : ℕ) : ℤ)
        rw [hs3, hw3]; omega
  show Host.scatter d f x idx upd (ix4 a k c e) = _
  split
  · next h =>
    refine scatter_apply_hit d f x idx upd _ (ix4 a (⟨k.val - o, by omega⟩ : Fin m) c e) ?_ ?_
    · rw [hland]
      refine ⟨rfl, ?_, rfl, rfl⟩
      show o + (k.val - o) = k.val
      omega
    · intro j hj
      rw [hland] at hj
      obtain ⟨h0, h1, h2, h3⟩ := hj
      rw [eq_ix4 j]
      congr 1
      · exact Fin.ext h0
      · exact Fin.ext (by show (j 1).val = k.val - o; omega)
      · exact Fin.ext h2
      · exact Fin.ext h3
  · next h =>
    refine scatter_apply_miss d f x idx upd _ ?_
    intro j hj
    rw [hland] at hj
    have hj1 : (j 1).val < m := (j 1).isLt
    omega

/-- x.at[:, :, o:o+m].op(u) on a rank-4 array, read at (a, b, k, e): inside the window columns the body's function
    of the operand there and update column k - o, outside them the operand. -/
theorem window_axis2_apply {α : Type} {n0 n1 n2 n3 m : ℕ}
    (wf : ScatterDims.WF (⟨4, ![n0, n1, n2, n3]⟩ : Shape) ⟨1, ![1]⟩ ⟨4, ![n0, n1, m, n3]⟩ [0, 1, 2, 3] [] [2] 0)
    (f : α → α → α) (x : (⟨4, ![n0, n1, n2, n3]⟩ : Shape).Idx → α) (idx : IVec ⟨1, ![1]⟩ 32) (o : ℕ)
    (hidx : ∀ k, (idx k).toInt = (o : ℤ)) (upd : (⟨4, ![n0, n1, m, n3]⟩ : Shape).Idx → α)
    (a : Fin n0) (b : Fin n1) (k : Fin n2) (e : Fin n3) :
    Host.scatter (⟨[0, 1, 2, 3], [], [2], 0, wf⟩ : ScatterDims (⟨4, ![n0, n1, n2, n3]⟩ : Shape) ⟨1, ![1]⟩ ⟨4, ![n0, n1, m, n3]⟩)
        f x idx upd (ix4 a b k e)
      = if h : o ≤ k.val ∧ k.val < o + m then f (x (ix4 a b k e)) (upd (ix4 a b (⟨k.val - o, by omega⟩ : Fin m) e))
        else x (ix4 a b k e) := by
  let d : ScatterDims (⟨4, ![n0, n1, n2, n3]⟩ : Shape) ⟨1, ![1]⟩ ⟨4, ![n0, n1, m, n3]⟩ := ⟨[0, 1, 2, 3], [], [2], 0, wf⟩
  have hs0 : ∀ j, d.start j idx 0 = 0 := fun j => rfl
  have hs1 : ∀ j, d.start j idx 1 = 0 := fun j => rfl
  have hs3 : ∀ j, d.start j idx 3 = 0 := fun j => rfl
  have hs2 : ∀ j, d.start j idx 2 = (o : ℤ) := by
    intro j
    unfold ScatterDims.start
    rw [dif_pos (show (2 : Fin 4) ∈ [(2 : Fin 4)] from List.mem_singleton.mpr rfl)]
    exact hidx _
  have hw0 : ∀ j : (⟨4, ![n0, n1, m, n3]⟩ : Shape).Idx, d.window j 0 = (j 0).val := fun j => rfl
  have hw1 : ∀ j : (⟨4, ![n0, n1, m, n3]⟩ : Shape).Idx, d.window j 1 = (j 1).val := fun j => rfl
  have hw2 : ∀ j : (⟨4, ![n0, n1, m, n3]⟩ : Shape).Idx, d.window j 2 = (j 2).val := fun j => rfl
  have hw3 : ∀ j : (⟨4, ![n0, n1, m, n3]⟩ : Shape).Idx, d.window j 3 = (j 3).val := fun j => rfl
  have hland : ∀ j : (⟨4, ![n0, n1, m, n3]⟩ : Shape).Idx, d.resultIdx? j idx = some (ix4 a b k e) ↔
      (j 0).val = a.val ∧ (j 1).val = b.val ∧ o + (j 2).val = k.val ∧ (j 3).val = e.val := by
    intro j
    rw [ScatterColumn.resultIdx?_eq_some_iff]
    constructor
    · intro hj
      have h0 := hj 0; have h1 := hj 1; have h2 := hj 2; have h3 := hj 3
      rw [hs0, hw0] at h0; rw [hs1, hw1] at h1; rw [hs2, hw2] at h2; rw [hs3, hw3] at h3
      have h0' : (0 : ℤ) + (((j 0).val : ℕ) : ℤ) = ((a.val : ℕ) : ℤ) := h0
      have h1' : (0 : ℤ) + (((j 1).val : ℕ) : ℤ) = ((b.val : ℕ) : ℤ) := h1
      have h2' : (o : ℤ) + (((j 2).val : ℕ) : ℤ) = ((k.val : ℕ) : ℤ) := h2
      have h3' : (0 : ℤ) + (((j 3).val : ℕ) : ℤ) = ((e.val : ℕ) : ℤ) := h3
      omega
    · rintro ⟨h0, h1, h2, h3⟩ ax
      match ax with
      | ⟨0, _⟩ =>
        show d.start j idx 0 + ((d.window j 0 : ℕ) : ℤ) = ((a.val : ℕ) : ℤ)
        rw [hs0, hw0]; omega
      | ⟨1, _⟩ =>
        show d.start j idx 1 + ((d.window j 1 : ℕ) : ℤ) = ((b.val : ℕ) : ℤ)
        rw [hs1, hw1]; omega
      | ⟨2, _⟩ =>
        show d.start j idx 2 + ((d.window j 2 : ℕ) : ℤ) = ((k.val : ℕ) : ℤ)
        rw [hs2, hw2]; omega
      | ⟨3, _⟩ =>
        show d.start j idx 3 + ((d.window j 3 : ℕ) : ℤ) = ((e.val : ℕ) : ℤ)
        rw [hs3, hw3]; omega
  show Host.scatter d f x idx upd (ix4 a b k e) = _
  split
  · next h =>
    refine scatter_apply_hit d f x idx upd _ (ix4 a b (⟨k.val - o, by omega⟩ : Fin m) e) ?_ ?_
    · rw [hland]
      refine ⟨rfl, rfl, ?_, rfl⟩
      show o + (k.val - o) = k.val
      omega
    · intro j hj
      rw [hland] at hj
      obtain ⟨h0, h1, h2, h3⟩ := hj
      rw [eq_ix4 j]
      congr 1
      · exact Fin.ext h0
      · exact Fin.ext h1
      · exact Fin.ext (by show (j 2).val = k.val - o; omega)
      · exact Fin.ext h3
  · next h =>
    refine scatter_apply_miss d f x idx upd _ ?_
    intro j hj
    rw [hland] at hj
    have hj2 : (j 2).val < m := (j 2).isLt
    omega

end Cert.ScatterOnce
-- ==== Proof.Reference.lean ====
/-
  THE REFERENCE COMPUTES THE TWO FOLDS.

  The reference cuts rows 0 .. 15, reverses them along the row axis and adds the result into rows 16 .. 31 by a scatter
  with a single start index 16 on the row axis whose update window is the whole reversed slab; then it does the same
  along the column axis of the result. A scatter of one window touches every position at most once, so the result
  reads position by position: inside the window the operand plus the update, outside it the operand. The update at
  row 16 + j is the reversed slab's row j, which is row 15 - j of the array: the mirror image of row 16 + j.
-/
import proofs.«155534_j63909113364644_2_alg».proof.Proof.Gen.ReferenceIdeal.Read
import proofs.«155534_j63909113364644_2_alg».proof.Proof.Fold
import proofs.«155534_j63909113364644_2_alg».proof.Proof.LibScatterOnce

noncomputable section

namespace Cert.ReferenceIdeal.RefValue

open Cert.ReferenceIdeal Cert.ReferenceIdeal.Gen Cert.ReferenceIdeal.Read Idealize.ShloMosaic Idealize.ShloMosaic.ValueIdx
open Cert.Fold

/-- The first scatter's one start index is 16. -/
theorem start_rows (k : S1.Idx) : ((val_main_v2 (F := Ideal)) k).toInt = ((16 : ℕ) : ℤ) := by
  rw [val_main_v2_apply, val_main_c_apply]; decide

/-- The second scatter's one start index is 16. -/
theorem start_cols (k : S1.Idx) : ((val_main_v6 (F := Ideal)) k).toInt = ((16 : ℕ) : ℤ) := by
  rw [val_main_v6_apply, val_main_c_0_apply]; decide

/-- The reversed slab of rows 0 .. 15 at row j is row 15 - j of the array. -/
theorem reversed_rows (x : SX.Idx → EReal) (a : Fin 8) (j : Fin 16) (w : Fin 512) (c : Fin 32) :
    val_main_v1 (F := Ideal) x (ix4 a j w c) = x (ix4 a (⟨15 - j.val, by omega⟩ : Fin 512) w c) := by
  unfold val_main_v1 Host.reverse
  rw [val_main_v0_apply]
  refine congrArg x (funext fun ax => Fin.ext ?_)
  match ax with
  | ⟨0, _⟩ => rfl
  | ⟨1, _⟩ =>
    show (Fin.rev j).val = 15 - j.val
    rw [Fin.val_rev]; omega
  | ⟨2, _⟩ => rfl
  | ⟨3, _⟩ => rfl

/-- After the first scatter the array holds the row fold. -/
theorem rows_apply (x : SX.Idx → EReal) (a : Fin 8) (h : Fin 512) (w : Fin 512) (c : Fin 32) :
    val_main_v3 (F := Ideal) x (ix4 a h w c) = foldRows x (ix4 a h w c) := by
  rw [foldRows_apply]
  have e := ScatterOnce.window_axis1_apply (α := EReal) (n0 := 8) (n1 := 512) (n2 := 512) (n3 := 32) (m := 16)
    Facts₀.scatter_S8x512x512x32_S1_S8x16x512x32_0123_n_1_0_wf (FloatOps.addf (F := Ideal) (φ := .f32)) x (val_main_v2 (F := Ideal)) 16 start_rows
    (val_main_v1 (F := Ideal) x) a h w c
  refine (Eq.trans ?_ e).trans ?_
  · rfl
  by_cases hh : 16 ≤ h.val ∧ h.val < 32
  · rw [dif_pos (show 16 ≤ h.val ∧ h.val < 16 + 16 from by omega), if_pos hh, reversed_rows]
    exact congrArg (fun k : Fin 512 => x (ix4 a h w c) + x (ix4 a k w c))
      (Fin.ext (by rw [mirror_val]; show 15 - (h.val - 16) = 31 - h.val; omega))
  · rw [dif_neg (show ¬ (16 ≤ h.val ∧ h.val < 16 + 16) from by omega), if_neg hh]

/-- The reversed slab of columns 0 .. 15 of the row fold at column j is its column 15 - j. -/
theorem reversed_cols (x : SX.Idx → EReal) (a : Fin 8) (h : Fin 512) (j : Fin 16) (c : Fin 32) :
    val_main_v5 (F := Ideal) x (ix4 a h j c) = val_main_v3 (F := Ideal) x (ix4 a h (⟨15 - j.val, by omega⟩ : Fin 512) c) := by
  unfold val_main_v5 Host.reverse
  rw [val_main_v4_apply]
  refine congrArg (val_main_v3 (F := Ideal) x) (funext fun ax => Fin.ext ?_)
  match ax with
  | ⟨0, _⟩ => rfl
  | ⟨1, _⟩ => rfl
  | ⟨2, _⟩ =>
    show (Fin.rev j).val = 15 - j.val
    rw [Fin.val_rev]; omega
  | ⟨3, _⟩ => rfl

/-- The reference's result is the two folds of its argument. -/
theorem result_eq (x : SX.Idx → EReal) : val_main_v7 (F := Ideal) x = fold2 x := by
  funext i
  obtain ⟨a, h, w, c, rfl⟩ : ∃ (a : Fin 8) (h : Fin 512) (w : Fin 512) (c : Fin 32), i = ix4 a h w c :=
    ⟨i 0, i 1, i 2, i 3, eq_ix4 i⟩
  unfold fold2
  rw [foldCols_apply]
  have e := ScatterOnce.window_axis2_apply (α := EReal) (n0 := 8) (n1 := 512) (n2 := 512) (n3 := 32) (m := 16)
    Facts₀.scatter_S8x512x512x32_S1_S8x512x16x32_0123_n_2_0_wf (FloatOps.addf (F := Ideal) (φ := .f32)) (val_main_v3 (F := Ideal) x)
    (val_main_v6 (F := Ideal)) 16 start_cols (val_main_v5 (F := Ideal) x) a h w c
  refine (Eq.trans ?_ e).trans ?_
  · rfl
  by_cases hw : 16 ≤ w.val ∧ w.val < 32
  · rw [dif_pos (show 16 ≤ w.val ∧ w.val < 16 + 16 from by omega), if_pos hw, reversed_cols, rows_apply, rows_apply]
    exact congrArg (fun k : Fin 512 => foldRows x (ix4 a h w c) + foldRows x (ix4 a h k c))
      (Fin.ext (by rw [mirror_val]; show 15 - (w.val - 16) = 31 - w.val; omega))
  · rw [dif_neg (show ¬ (16 ≤ w.val ∧ w.val < 16 + 16) from by omega), if_neg hw, rows_apply]

end Cert.ReferenceIdeal.RefValue

end
-- ==== Proof.lean ====
/-
  FOLDING A 16-WIDE BORDER ONTO ITS NEIGHBOUR, ALONG ROWS AND THEN ALONG COLUMNS: kernel against reference.

  On x[b, h, w, c] (8 x 512 x 512 x 32) both programs compute
      y[b, h, w, c] = x[b, h, w, c] + x[b, 31 - h, w, c]   for 16 <= h < 32,   y = x on every other row,
      z[b, h, w, c] = y[b, h, w, c] + y[b, h, 31 - w, c]   for 16 <= w < 32,   z = y on every other column.
  The reference does it on the whole array: a slab of 16 rows (columns) is cut, reversed and added into the next 16 by a
  scatter with one start index, which touches every position at most once (Reference.lean). The kernel works block by
  block, one batch entry and 32 rows at a time: the rows the row fold reads and writes all lie in the first row block,
  where the body adds the reversed upper half to the lower half, while in every other block it adds zero, which changes
  nothing on the extended reals; the column fold stays inside a block because a block keeps all columns (Payload.lean,
  Block.lean). The two results are the same function (Fold.lean) of arguments that agree. Only sums of two elements and a
  sum with zero occur, so no finiteness of the input is used.
  The kernel's idealization rewrote no operation: there is nothing to preserve.
-/
import proofs.«155534_j63909113364644_2_alg».proof.Defs
import proofs.«155534_j63909113364644_2_alg».proof.Proof.Gen.Kernel
import proofs.«155534_j63909113364644_2_alg».proof.Proof.Gen.Kernel.Skeleton
import proofs.«155534_j63909113364644_2_alg».proof.Proof.Gen.Kernel.Launch
import proofs.«155534_j63909113364644_2_alg».proof.Proof.Gen.Kernel.Points
import proofs.«155534_j63909113364644_2_alg».proof.Proof.Gen.Kernel.Frame
import proofs.«155534_j63909113364644_2_alg».proof.Proof.Gen.KernelIdeal
import proofs.«155534_j63909113364644_2_alg».proof.Proof.Gen.KernelIdeal.Skeleton
import proofs.«155534_j63909113364644_2_alg».proof.Proof.Gen.KernelIdeal.Launch
import proofs.«155534_j63909113364644_2_alg».proof.Proof.Gen.KernelIdeal.Points
import proofs.«155534_j63909113364644_2_alg».proof.Proof.Gen.KernelIdeal.Frame
import proofs.«155534_j63909113364644_2_alg».proof.Proof.Gen.ReferenceIdeal
import proofs.«155534_j63909113364644_2_alg».proof.Proof.Gen.KernelIdeal.Value
import proofs.«155534_j63909113364644_2_alg».proof.Proof.Gen.ReferenceIdeal.Run
import proofs.«155534_j63909113364644_2_alg».proof.Proof.Gen.ReferenceIdeal.Read
import proofs.«155534_j63909113364644_2_alg».proof.Proof.Gen.Pre_finite_inputs
import proofs.«155534_j63909113364644_2_alg».proof.Proof.Block
import proofs.«155534_j63909113364644_2_alg».proof.Proof.Reference
import Idealize.ShloMosaic.Adequacy
import Idealize.ShloMosaic.Init

noncomputable section

namespace Cert.Proof

open Idealize.ShloMosaic Idealize.ShloMosaic.TcCoe Idealize.SL.Sem

/-- The kernel runs, and its argument ends unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, and its argument ends unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the two folds of their argument, and the arguments agree. -/
theorem algebraic : Cert.algebraic_KernelIdeal_ReferenceIdeal := by
  intro m ρ m' ρ' _ hagree
  refine ⟨fun c => Cert.Fold.fold2 (m ((c.tc : Thread Cert.KernelIdeal.nD Cert.KernelIdeal.τ).loc Cert.KernelIdeal.main_arg0)),
    Cert.KernelIdeal.Block.run m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.Read.val_main_v7_eq _).trans
    ((Cert.ReferenceIdeal.RefValue.result_eq _).trans (congrArg Cert.Fold.fold2 (hagree c)))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
